-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x65536x386 : Shape := ⟨3, ![4, 65536, 386]⟩
abbrev S4x65536 : Shape := ⟨2, ![4, 65536]⟩
abbrev S128 : Shape := ⟨1, ![128]⟩
abbrev S384x384 : Shape := ⟨2, ![384, 384]⟩
abbrev S384 : Shape := ⟨1, ![384]⟩
abbrev S384x128 : Shape := ⟨2, ![384, 128]⟩
abbrev S_ : Shape := ⟨0, ![]⟩

class Facts : Prop where
  bcast_S_S4x65536x386 : S_.BroadcastsInDim S4x65536x386 (![] : Fin 0 → Fin S4x65536x386.rank)
  reducesTo_S4x65536x386_S_d0_1_2 : S4x65536x386.ReducesTo [0, 1, 2] S_
  h_S_ : 0 < S_.numel
  bcast_S_S4x65536 : S_.BroadcastsInDim S4x65536 (![] : Fin 0 → Fin S4x65536.rank)
  reducesTo_S4x65536_S_d0_1 : S4x65536.ReducesTo [0, 1] S_
  bcast_S_S128 : S_.BroadcastsInDim S128 (![] : Fin 0 → Fin S128.rank)
  reducesTo_S128_S_d0 : S128.ReducesTo [0] S_
  bcast_S_S384x384 : S_.BroadcastsInDim S384x384 (![] : Fin 0 → Fin S384x384.rank)
  reducesTo_S384x384_S_d0_1 : S384x384.ReducesTo [0, 1] S_
  bcast_S_S384 : S_.BroadcastsInDim S384 (![] : Fin 0 → Fin S384.rank)
  reducesTo_S384_S_d0 : S384.ReducesTo [0] S_
  bcast_S_S384x128 : S_.BroadcastsInDim S384x128 (![] : Fin 0 → Fin S384x128.rank)
  reducesTo_S384x128_S_d0_1 : S384x128.ReducesTo [0, 1] S_

variable [Facts]

def fn_part2 {F : FTy → Type} [FloatOps F] (main_arg7 : FVec F S384 .f32) (main_v33 : IVec S_ 1) : IVec S_ 1 :=
  let main_v34 : FVec F S384 .f32 := Host.absf main_arg7
  let main_cst_12 : FVec F S_ .f32 := constant S_ .f32 0x7F800000#32
  let main_v35 : FVec F S384 .f32 := broadcastInDim S384 ![] bcast_S_S384 main_cst_12
  let main_v36 : IVec S384 1 := cmpf .olt main_v34 main_v35
  let main_c_13 : IVec S_ 1 := constantI S_ 1 1#1
  let main_v37 : IVec S_ 1 := (fun x v => Host.reduce IntOp.andi x v reducesTo_S384_S_d0 h_S_) main_v36 main_c_13
  let main_v38 : IVec S_ 1 := andi main_v33 main_v37
  main_v38

def fn_part1 {F : FTy → Type} [FloatOps F] (main_arg4 : FVec F S384x384 .f32) (main_arg5 : FVec F S384 .f32) (main_arg6 : FVec F S384x128 .f32) (main_arg7 : FVec F S384 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S384x384 .f32 := Host.absf main_arg4
  let main_cst_6 : FVec F S_ .f32 := constant S_ .f32 0x7F800000#32
  let main_v20 : FVec F S384x384 .f32 := broadcastInDim S384x384 ![] bcast_S_S384x384 main_cst_6
  let main_v21 : IVec S384x384 1 := cmpf .olt main_v19 main_v20
  let main_c_7 : IVec S_ 1 := constantI S_ 1 1#1
  let main_v22 : IVec S_ 1 := (fun x v => Host.reduce IntOp.andi x v reducesTo_S384x384_S_d0_1 h_S_) main_v21 main_c_7
  let main_v23 : IVec S_ 1 := andi main_v18 main_v22
  let main_v24 : FVec F S384 .f32 := Host.absf main_arg5
  let main_cst_8 : FVec F S_ .f32 := constant S_ .f32 0x7F800000#32
  let main_v25 : FVec F S384 .f32 := broadcastInDim S384 ![] bcast_S_S384 main_cst_8
  let main_v26 : IVec S384 1 := cmpf .olt main_v24 main_v25
  let main_c_9 : IVec S_ 1 := constantI S_ 1 1#1
  let main_v27 : IVec S_ 1 := (fun x v => Host.reduce IntOp.andi x v reducesTo_S384_S_d0 h_S_) main_v26 main_c_9
  let main_v28 : IVec S_ 1 := andi main_v23 main_v27
  let main_v29 : FVec F S384x128 .f32 := Host.absf main_arg6
  let main_cst_10 : FVec F S_ .f32 := constant S_ .f32 0x7F800000#32
  let main_v30 : FVec F S384x128 .f32 := broadcastInDim S384x128 ![] bcast_S_S384x128 main_cst_10
  let main_v31 : IVec S384x128 1 := cmpf .olt main_v29 main_v30
  let main_c_11 : IVec S_ 1 := constantI S_ 1 1#1
  let main_v32 : IVec S_ 1 := (fun x v => Host.reduce IntOp.andi x v reducesTo_S384x128_S_d0_1 h_S_) main_v31 main_c_11
  let main_v33 : IVec S_ 1 := andi main_v28 main_v32
  fn_part2 (F := F) main_arg7 main_v33

def fn {F : FTy → Type} [FloatOps F] (main_arg0 : FVec F S4x65536x386 .f32) (main_arg1 : FVec F S4x65536 .f32) (main_arg2 : FVec F S128 .f32) (main_arg3 : FVec F S128 .f32) (main_arg4 : FVec F S384x384 .f32) (main_arg5 : FVec F S384 .f32) (main_arg6 : FVec F S384x128 .f32) (main_arg7 : FVec F S384 .f32) : IVec S_ 1 :=
  let main_v0 : FVec F S4x65536x386 .f32 := Host.absf main_arg0
  let main_cst : FVec F S_ .f32 := constant S_ .f32 0x7F800000#32
  let main_v1 : FVec F S4x65536x386 .f32 := broadcastInDim S4x65536x386 ![] bcast_S_S4x65536x386 main_cst
  let main_v2 : IVec S4x65536x386 1 := cmpf .olt main_v0 main_v1
  let main_c : IVec S_ 1 := constantI S_ 1 1#1
  let main_v3 : IVec S_ 1 := (fun x v => Host.reduce IntOp.andi x v reducesTo_S4x65536x386_S_d0_1_2 h_S_) main_v2 main_c
  let main_v4 : FVec F S4x65536 .f32 := Host.absf main_arg1
  let main_cst_0 : FVec F S_ .f32 := constant S_ .f32 0x7F800000#32
  let main_v5 : FVec F S4x65536 .f32 := broadcastInDim S4x65536 ![] bcast_S_S4x65536 main_cst_0
  let main_v6 : IVec S4x65536 1 := cmpf .olt main_v4 main_v5
  let main_c_1 : IVec S_ 1 := constantI S_ 1 1#1
  let main_v7 : IVec S_ 1 := (fun x v => Host.reduce IntOp.andi x v reducesTo_S4x65536_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_v13 main_v16
-- ==== Kernel.lean ====
abbrev S4x65536x386 : Shape := ⟨3, ![4, 65536, 386]⟩
abbrev S4x65536 : Shape := ⟨2, ![4, 65536]⟩
abbrev S128 : Shape := ⟨1, ![128]⟩
abbrev S384x384 : Shape := ⟨2, ![384, 384]⟩
abbrev S384 : Shape := ⟨1, ![384]⟩
abbrev S384x128 : Shape := ⟨2, ![384, 128]⟩
abbrev S262144x386 : Shape := ⟨2, ![262144, 386]⟩
abbrev S262144x1 : Shape := ⟨2, ![262144, 1]⟩
abbrev S1x128 : Shape := ⟨2, ![1, 128]⟩
abbrev S1x384 : Shape := ⟨2, ![1, 384]⟩
abbrev S_ : Shape := ⟨0, ![]⟩
abbrev S386x384 : Shape := ⟨2, ![386, 384]⟩
abbrev S384x256 : Shape := ⟨2, ![384, 256]⟩
abbrev S256x384 : Shape := ⟨2, ![256, 384]⟩
abbrev S1 : Shape := ⟨1, ![1]⟩
abbrev S128x384 : Shape := ⟨2, ![128, 384]⟩
abbrev S262144x128 : Shape := ⟨2, ![262144, 128]⟩
abbrev S2048x386 : Shape := ⟨2, ![2048, 386]⟩
abbrev S2048x1 : Shape := ⟨2, ![2048, 1]⟩
abbrev S2048x128 : Shape := ⟨2, ![2048, 128]⟩
abbrev S2048x384 : Shape := ⟨2, ![2048, 384]⟩

abbrev nBuf : Space → Nat
  | .hbm => 33
  | .vmem => 13
  | .smem => 0
  | _ => 0

abbrev bufTy : (tb : Table) → Fin (tcTables nBuf tb) → BufTy
  | .hbm, ⟨0, _⟩ => ⟨S4x65536x386, .f32⟩
  | .hbm, ⟨1, _⟩ => ⟨S4x65536, .f32⟩
  | .hbm, ⟨2, _⟩ => ⟨S128, .f32⟩
  | .hbm, ⟨3, _⟩ => ⟨S128, .f32⟩
  | .hbm, ⟨4, _⟩ => ⟨S384x384, .f32⟩
  | .hbm, ⟨5, _⟩ => ⟨S384, .f32⟩
  | .hbm, ⟨6, _⟩ => ⟨S384x128, .f32⟩
  | .hbm, ⟨7, _⟩ => ⟨S384, .f32⟩
  | .hbm, ⟨8, _⟩ => ⟨S262144x386, .f32⟩
  | .hbm, ⟨9, _⟩ => ⟨S262144x1, .f32⟩
  | .hbm, ⟨10, _⟩ => ⟨S1x128, .f32⟩
  | .hbm, ⟨11, _⟩ => ⟨S1x128, .f32⟩
  | .hbm, ⟨12, _⟩ => ⟨S1x384, .f32⟩
  | .hbm, ⟨13, _⟩ => ⟨S1x384, .f32⟩
  | .hbm, ⟨14, _⟩ => ⟨S_, .f32⟩
  | .hbm, ⟨15, _⟩ => ⟨S386x384, .f32⟩
  | .hbm, ⟨16, _⟩ => ⟨S384x256, .f32⟩
  | .hbm, ⟨17, _⟩ => ⟨S256x384, .f32⟩
  | .hbm, ⟨18, _⟩ => ⟨S_, .i32⟩
  | .hbm, ⟨19, _⟩ => ⟨S1, .i32⟩
  | .hbm, ⟨20, _⟩ => ⟨S386x384, .f32⟩
  | .hbm, ⟨21, _⟩ => ⟨S386x384, .bf16⟩
  | .hbm, ⟨22, _⟩ => ⟨S384x128, .f32⟩
  | .hbm, ⟨23, _⟩ => ⟨S128x384, .f32⟩
  | .hbm, ⟨24, _⟩ => ⟨S128x384, .bf16⟩
  | .hbm, ⟨25, _⟩ => ⟨S_, .f32⟩
  | .hbm, ⟨26, _⟩ => ⟨S386x384, .f32⟩
  | .hbm, ⟨27, _⟩ => ⟨S128x384, .f32⟩
  | .hbm, ⟨28, _⟩ => ⟨S_, .i32⟩
  | .hbm, ⟨29, _⟩ => ⟨S1, .i32⟩
  | .hbm, ⟨30, _⟩ => ⟨S386x384, .f32⟩
  | .hbm, ⟨31, _⟩ => ⟨S386x384, .bf16⟩
  | .hbm, ⟨32, _⟩ => ⟨S262144x128, .f32⟩
  | .local _ .vmem, ⟨0, _⟩ => ⟨S2048x386, .f32⟩
  | .local _ .vmem, ⟨1, _⟩ => ⟨S2048x386, .f32⟩
  | .local _ .vmem, ⟨2, _⟩ => ⟨S2048x1, .f32⟩
  | .local _ .vmem, ⟨3, _⟩ => ⟨S2048x1, .f32⟩
  | .local _ .vmem, ⟨4, _⟩ => ⟨S1x128, .f32⟩
  | .local _ .vmem, ⟨5, _⟩ => ⟨S1x128, .f32⟩
  | .local _ .vmem, ⟨6, _⟩ => ⟨S386x384, .bf16⟩
  | .local _ .vmem, ⟨7, _⟩ => ⟨S128x384, .bf16⟩
  | .local _ .vmem, ⟨8, _⟩ => ⟨S1x384, .f32⟩
  | .local _ .vmem, ⟨9, _⟩ => ⟨S386x384, .bf16⟩
  | .local _ .vmem, ⟨10, _⟩ => ⟨S1x384, .f32⟩
  | .local _ .vmem, ⟨11, _⟩ => ⟨S2048x128, .f32⟩
  | .local _ .vmem, ⟨12, _⟩ => ⟨S2048x128, .f32⟩
  | _, _ => ⟨S4x65536x386, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_0 : Ref sig .tc := ⟨.hbm, 25, rfl⟩
abbrev main_v15 : Ref sig .tc := ⟨.hbm, 26, rfl⟩
abbrev main_v16 : Ref sig .tc := ⟨.hbm, 27, rfl⟩
abbrev main_c_1 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x386 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S386x384 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x384 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S386x384 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x384 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S2048x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  shapeCasts_S4x65536x386_S262144x386 : S4x65536x386.ShapeCasts S262144x386
  shapeCasts_S4x65536_S262144x1 : S4x65536.ShapeCasts S262144x1
  shapeCasts_S128_S1x128 : S128.ShapeCasts S1x128
  shapeCasts_S384_S1x384 : S384.ShapeCasts S1x384
  bcast_S_S386x384 : S_.BroadcastsInDim S386x384 (![] : Fin 0 → Fin S386x384.rank)
  slices_S384x384_S384x256_0_0 : S384x384.Slices ![0, 0] S384x256
  transposes_S384x256_S256x384_1_0 : S384x256.Transposes [1, 0] S256x384
  bcast_S_S1 : S_.BroadcastsInDim S1 (![] : Fin 0 → Fin S1.rank)
  bitsLt_bf16_f32 : FTy.bits .bf16 < FTy.bits .f32
  slices_S384x384_S384x128_0_256 : S384x384.Slices ![0, 256] S384x128
  transposes_S384x128_S128x384_1_0 : S384x128.Transposes [1, 0] S128x384
  inb_S2048x386_S2048x386_0_0 : ∀ a, (![0, 0] : Fin 2 → Nat) a + S2048x386.size a ≤ S2048x386.size a
  h_S2048x386 : 0 < S2048x386.numel
  shapeCasts_S2048x386_S2048x386 : S2048x386.ShapeCasts S2048x386
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  slices_S2048x386_o0_0_S2048x1 : S2048x386.Slices ![0, 0] S2048x1
  slices_S2048x386_o0_258_S2048x128 : S2048x386.Slices ![0, 258] S2048x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S2048x1_S2048x128 : S2048x1.Broadcasts S2048x128
  broadcasts_S1x128_S2048x128 : S1x128.Broadcasts S2048x128
  inb_S386x384_S386x384_0_0 : ∀ a, (![0, 0] : Fin 2 → Nat) a + S386x384.size a ≤ S386x384.size a
  h_S386x384 : 0 < S386x384.numel
  shapeCasts_S386x384_S386x384 : S386x384.ShapeCasts S386x384
  inb_S128x384_S128x384_0_0 : ∀ a, (![0, 0] : Fin 2 → Nat) a + S128x384.size a ≤ S128x384.size a
  h_S128x384 : 0 < S128x384.numel
  shapeCasts_S128x384_S128x384 : S128x384.ShapeCasts S128x384
  inb_S1x384_S1x384_0_0 : ∀ a, (![0, 0] : Fin 2 → Nat) a + S1x384.size a ≤ S1x384.size a
  h_S1x384 : 0 < S1x384.numel
  shapeCasts_S1x384_S1x384 : S1x384.ShapeCasts S1x384
  broadcasts_S1x384_S2048x384 : S1x384.Broadcasts S2048x384
  slices_S2048x384_o0_0_S2048x128 : S2048x384.Slices ![0, 0] S2048x128
  slices_S2048x384_o0_128_S2048x128 : S2048x384.Slices ![0, 128] S2048x128
  slices_S2048x384_o0_256_S2048x128 : S2048x384.Slices ![0, 256] S2048x128
  inb_S2048x128_S2048x128_0_0 : ∀ a, (![0, 0] : Fin 2 → Nat) a + S2048x128.size a ≤ S2048x128.size a
  h_S2048x128 : 0 < S2048x128.numel
  scatter_S386x384_S1_S256x384_01_n_0_0_wf : ScatterDims.WF S386x384 S1 S256x384 [0, 1] [] [0] 0
  scatter_S386x384_S1_S128x384_01_n_0_0_wf : ScatterDims.WF S386x384 S1 S128x384 [0, 1] [] [0] 0
  dot_S2048x386_S386x384_S2048x384_1_0_0_1_n_n_wf : DotDims.WF S2048x386 S386x384 S2048x384 [1] [0] [0] [1] [] []
  dot_S2048x128_S128x384_S2048x384_1_0_0_1_n_n_wf : DotDims.WF S2048x128 S128x384 S2048x384 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x386.size a ≤ S262144x386.size a
  hwx0_0 : ∀ i : grid0.Coords, EltTy.bits .f32 = 32 ∨ (Rect.block (s := S262144x386) S2048x386.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1.size a ≤ S262144x1.size a
  hwx0_1 : ∀ i : grid0.Coords, EltTy.bits .f32 = 32 ∨ (Rect.block (s := S262144x1) S2048x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S386x384.size a ≤ S386x384.size a
  hwx0_4 : ∀ i : grid0.Coords, EltTy.bits .bf16 = 32 ∨ (Rect.block (s := S386x384) S386x384.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x384.size a ≤ S128x384.size a
  hwx0_5 : ∀ i : grid0.Coords, EltTy.bits .bf16 = 32 ∨ (Rect.block (s := S128x384) S128x384.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x384.size a ≤ S1x384.size a
  hwx0_6 : ∀ i : grid0.Coords, EltTy.bits .f32 = 32 ∨ (Rect.block (s := S1x384) S1x384.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S386x384.size a ≤ S386x384.size a
  hwx0_7 : ∀ i : grid0.Coords, EltTy.bits .bf16 = 32 ∨ (Rect.block (s := S386x384) S386x384.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x384.size a ≤ S1x384.size a
  hwx0_8 : ∀ i : grid0.Coords, EltTy.bits .f32 = 32 ∨ (Rect.block (s := S1x384) S1x384.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2048x128.size a ≤ S262144x128.size a
  hwx0_9 : ∀ i : grid0.Coords, EltTy.bits .f32 = 32 ∨ (Rect.block (s := S262144x128) S2048x128.size (cc0_transform_9 i) (hinb0_9 i)).WholeWords (EltTy.packing .f32)

variable [Facts₀]

def scatter_S386x384_S1_S256x384_01_n_0_0 : ScatterDims S386x384 S1 S256x384 where
  updateWindowDims := [0, 1]
  insertedWindowDims := []
  scatterDimsToOperandDims := [0]
  indexVectorDim := 0
  wf := scatter_S386x384_S1_S256x384_01_n_0_0_wf
def scatter_S386x384_S1_S128x384_01_n_0_0 : ScatterDims S386x384 S1 S128x384 where
  updateWindowDims := [0, 1]
  insertedWindowDims := []
  scatterDimsToOperandDims := [0]
  indexVectorDim := 0
  wf := scatter_S386x384_S1_S128x384_01_n_0_0_wf
def dot_S2048x386_S386x384_S2048x384_1_0_0_1_n_n : DotDims S2048x386 S386x384 S2048x384 where
  lhsContracting := [1]
  rhsContracting := [0]
  lhsNonContracting := [0]
  rhsNonContracting := [1]
  lhsBatch := []
  rhsBatch := []
  wf := dot_S2048x386_S386x384_S2048x384_1_0_0_1_n_n_wf
def dot_S2048x128_S128x384_S2048x384_1_0_0_1_n_n : DotDims S2048x128 S128x384 S2048x384 where
  lhsContracting := [1]
  rhsContracting := [0]
  lhsNonContracting := [0]
  rhsNonContracting := [1]
  lhsBatch := []
  rhsBatch := []
  wf := dot_S2048x128_S128x384_S2048x384_1_0_0_1_n_n_wf

abbrev win0_0 : Pipeline.Window sig grid0 :=
  Pipeline.Window.ofSpec (Memref.whole main_v0) S2048x386.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2048x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11) S386x384.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v14) S128x384.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4) S1x384.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v19) S386x384.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v5) S1x384.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v20) S2048x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S4x65536x386 : Shape := ⟨3, ![4, 65536, 386]⟩
abbrev S4x65536 : Shape := ⟨2, ![4, 65536]⟩
abbrev S128 : Shape := ⟨1, ![128]⟩
abbrev S384x384 : Shape := ⟨2, ![384, 384]⟩
abbrev S384 : Shape := ⟨1, ![384]⟩
abbrev S384x128 : Shape := ⟨2, ![384, 128]⟩
abbrev S262144x386 : Shape := ⟨2, ![262144, 386]⟩
abbrev S262144 : Shape := ⟨1, ![262144]⟩
abbrev S262144x1 : Shape := ⟨2, ![262144, 1]⟩
abbrev S262144x256 : Shape := ⟨2, ![262144, 256]⟩
abbrev S262144x128 : Shape := ⟨2, ![262144, 128]⟩
abbrev S1x128 : Shape := ⟨2, ![1, 128]⟩
abbrev S262144x384 : Shape := ⟨2, ![262144, 384]⟩
abbrev S1x384 : Shape := ⟨2, ![1, 384]⟩
abbrev S128x384 : Shape := ⟨2, ![128, 384]⟩
abbrev S_ : Shape := ⟨0, ![]⟩

abbrev nBuf : Space → Nat
  | .hbm => 68
  | .vmem => 0
  | .smem => 0
  | _ => 0

abbrev bufTy : (tb : Table) → Fin (tcTables nBuf tb) → BufTy
  | .hbm, ⟨0, _⟩ => ⟨S4x65536x386, .f32⟩
  | .hbm, ⟨1, _⟩ => ⟨S4x65536, .f32⟩
  | .hbm, ⟨2, _⟩ => ⟨S128, .f32⟩
  | .hbm, ⟨3, _⟩ => ⟨S128, .f32⟩
  | .hbm, ⟨4, _⟩ => ⟨S384x384, .f32⟩
  | .hbm, ⟨5, _⟩ => ⟨S384, .f32⟩
  | .hbm, ⟨6, _⟩ => ⟨S384x128, .f32⟩
  | .hbm, ⟨7, _⟩ => ⟨S384, .f32⟩
  | .hbm, ⟨8, _⟩ => ⟨S262144x386, .f32⟩
  | .hbm, ⟨9, _⟩ => ⟨S262144, .f32⟩
  | .hbm, ⟨10, _⟩ => ⟨S262144x1, .f32⟩
  | .hbm, ⟨11, _⟩ => ⟨S262144, .f32⟩
  | .hbm, ⟨12, _⟩ => ⟨S262144x256, .f32⟩
  | .hbm, ⟨13, _⟩ => ⟨S262144x128, .f32⟩
  | .hbm, ⟨14, _⟩ => ⟨S262144, .f32⟩
  | .hbm, ⟨15, _⟩ => ⟨S262144x1, .f32⟩
  | .hbm, ⟨16, _⟩ => ⟨S1x128, .f32⟩
  | .hbm, ⟨17, _⟩ => ⟨S262144x128, .f32⟩
  | .hbm, ⟨18, _⟩ => ⟨S262144x128, .f32⟩
  | .hbm, ⟨19, _⟩ => ⟨S262144x128, .f32⟩
  | .hbm, ⟨20, _⟩ => ⟨S1x128, .f32⟩
  | .hbm, ⟨21, _⟩ => ⟨S262144x128, .f32⟩
  | .hbm, ⟨22, _⟩ => ⟨S262144x128, .f32⟩
  | .hbm, ⟨23, _⟩ => ⟨S262144x128, .f32⟩
  | .hbm, ⟨24, _⟩ => ⟨S262144x384, .f32⟩
  | .hbm, ⟨25, _⟩ => ⟨S384x384, .f32⟩
  | .hbm, ⟨26, _⟩ => ⟨S262144x384, .f32⟩
  | .hbm, ⟨27, _⟩ => ⟨S1x384, .f32⟩
  | .hbm, ⟨28, _⟩ => ⟨S262144x384, .f32⟩
  | .hbm, ⟨29, _⟩ => ⟨S262144x384, .f32⟩
  | .hbm, ⟨30, _⟩ => ⟨S128x384, .f32⟩
  | .hbm, ⟨31, _⟩ => ⟨S262144x384, .f32⟩
  | .hbm, ⟨32, _⟩ => ⟨S1x384, .f32⟩
  | .hbm, ⟨33, _⟩ => ⟨S262144x384, .f32⟩
  | .hbm, ⟨34, _⟩ => ⟨S262144x384, .f32⟩
  | .hbm, ⟨35, _⟩ => ⟨S262144x128, .f32⟩
  | .hbm, ⟨36, _⟩ => ⟨S262144x128, .f32⟩
  | .hbm, ⟨37, _⟩ => ⟨S262144x128, .f32⟩
  | .hbm, ⟨38, _⟩ => ⟨S262144x128, .f32⟩
  | .hbm, ⟨39, _⟩ => ⟨S262144x128, .f32⟩
  | .hbm, ⟨40, _⟩ => ⟨S262144x128, .f32⟩
  | .hbm, ⟨41, _⟩ => ⟨S262144x128, .f32⟩
  | .hbm, ⟨42, _⟩ => ⟨S262144x128, .f32⟩
  | .hbm, ⟨43, _⟩ => ⟨S262144x128, .f32⟩
  | .hbm, ⟨44, _⟩ => ⟨S_, .f32⟩
  | .hbm, ⟨45, _⟩ => ⟨S262144x128, .f32⟩
  | .hbm, ⟨46, _⟩ => ⟨S262144x128, .f32⟩
  | .hbm, ⟨47, _⟩ => ⟨S_, .f32⟩
  | .hbm, ⟨48, _⟩ => ⟨S262144x128, .f32⟩
  | .hbm, ⟨49, _⟩ => ⟨S262144x128, .f32⟩
  | .hbm, ⟨50, _⟩ => ⟨S262144x128, .f32⟩
  | .hbm, ⟨51, _⟩ => ⟨S262144x128, .f32⟩
  | .hbm, ⟨52, _⟩ => ⟨S262144x128, .f32⟩
  | .hbm, ⟨53, _⟩ => ⟨S_, .f32⟩
  | .hbm, ⟨54, _⟩ => ⟨S262144x128, .f32⟩
  | .hbm, ⟨55, _⟩ => ⟨S262144x128, .f32⟩
  | .hbm, ⟨56, _⟩ => ⟨S_, .f32⟩
  | .hbm, ⟨57, _⟩ => ⟨S262144x128, .f32⟩
  | .hbm, ⟨58, _⟩ => ⟨S262144x128, .f32⟩
  | .hbm, ⟨59, _⟩ => ⟨S262144x128, .f32⟩
  | .hbm, ⟨60, _⟩ => ⟨S262144x128, .f32⟩
  | .hbm, ⟨61, _⟩ => ⟨S262144x128, .f32⟩
  | .hbm, ⟨62, _⟩ => ⟨S_, .f32⟩
  | .hbm, ⟨63, _⟩ => ⟨S262144x128, .f32⟩
  | .hbm, ⟨64, _⟩ => ⟨S262144x128, .f32⟩
  | .hbm, ⟨65, _⟩ => ⟨S262144x128, .f32⟩
  | .hbm, ⟨66, _⟩ => ⟨S262144x128, .f32⟩
  | .hbm, ⟨67, _⟩ => ⟨S262144x128, .f32⟩
  | _, _ => ⟨S4x65536x386, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_cst : Ref sig .tc := ⟨.hbm, 44, rfl⟩
abbrev main_v36 : Ref sig .tc := ⟨.hbm, 45, rfl⟩
abbrev main_v37 : Ref sig .tc := ⟨.hbm, 46, rfl⟩
abbrev main_cst_0 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_cst_1 : Ref sig .tc := ⟨.hbm, 53, rfl⟩
abbrev main_v43 : Ref sig .tc := ⟨.hbm, 54, rfl⟩
abbrev main_v44 : Ref sig .tc := ⟨.hbm, 55, rfl⟩
abbrev main_cst_2 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_cst_3 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩

abbrev nD : Nat := 1
abbrev τ : Topo := Topo.v7x

variable {F : FTy → Type} [FloatOps F]

class Facts₀ : Prop where
  shapeCasts_S4x65536x386_S262144x386 : S4x65536x386.ShapeCasts S262144x386
  shapeCasts_S4x65536_S262144 : S4x65536.ShapeCasts S262144
  slices_S262144x386_S262144x1_0_0 : S262144x386.Slices ![0, 0] S262144x1
  shapeCasts_S262144x1_S262144 : S262144x1.ShapeCasts S262144
  slices_S262144x386_S262144x256_0_2 : S262144x386.Slices ![0, 2] S262144x256
  slices_S262144x386_S262144x128_0_258 : S262144x386.Slices ![0, 258] S262144x128
  bcast_S262144_S262144x1_0 : S262144.BroadcastsInDim S262144x1 (![0] : Fin 1 → Fin S262144x1.rank)
  bcast_S128_S1x128_1 : S128.BroadcastsInDim S1x128 (![1] : Fin 1 → Fin S1x128.rank)
  bcast_S262144x1_S262144x128_0_1 : S262144x1.BroadcastsInDim S262144x128 (![0, 1] : Fin 2 → Fin S262144x128.rank)
  bcast_S1x128_S262144x128_0_1 : S1x128.BroadcastsInDim S262144x128 (![0, 1] : Fin 2 → Fin S262144x128.rank)
  concatenates_S262144x256_S262144x128_S262144x384_d1 : Shape.Concatenates [S262144x256, S262144x128] S262144x384 1
  transposes_S384x384_S384x384_1_0 : S384x384.Transposes [1, 0] S384x384
  bcast_S384_S1x384_1 : S384.BroadcastsInDim S1x384 (![1] : Fin 1 → Fin S1x384.rank)
  bcast_S1x384_S262144x384_0_1 : S1x384.BroadcastsInDim S262144x384 (![0, 1] : Fin 2 → Fin S262144x384.rank)
  transposes_S384x128_S128x384_1_0 : S384x128.Transposes [1, 0] S128x384
  slices_S262144x384_S262144x128_0_0 : S262144x384.Slices ![0, 0] S262144x128
  slices_S262144x384_S262144x128_0_128 : S262144x384.Slices ![0, 128] S262144x128
  slices_S262144x384_S262144x128_0_256 : S262144x384.Slices ![0, 256] S262144x128
  bcast_S_S262144x128 : S_.BroadcastsInDim S262144x128 (![] : Fin 0 → Fin S262144x128.rank)
  dot_S262144x384_S384x384_S262144x384_1_0_0_1_n_n_wf : DotDims.WF S262144x384 S384x384 S262144x384 [1] [0] [0] [1] [] []
  dot_S262144x128_S128x384_S262144x384_1_0_0_1_n_n_wf : DotDims.WF S262144x128 S128x384 S262144x384 [1] [0] [0] [1] [] []

variable [Facts₀]

def dot_S262144x384_S384x384_S262144x384_1_0_0_1_n_n : DotDims S262144x384 S384x384 S262144x384 where
  lhsContracting := [1]
  rhsContracting := [0]
  lhsNonContracting := [0]
  rhsNonContracting := [1]
  lhsBatch := []
  rhsBatch := []
  wf := dot_S262144x384_S384x384_S262144x384_1_0_0_1_n_n_wf
def dot_S262144x128_S128x384_S262144x384_1_0_0_1_n_n : DotDims S262144x128 S128x384 S262144x384 where
  lhsContracting := [1]
  rhsContracting := [0]
  lhsNonContracting := [0]
  rhsNonContracting := [1]
  lhsBatch := []
  rhsBatch := []
  wf := dot_S262144x128_S128x384_S262144x384_1_0_0_1_n_n_wf

class Facts : Prop extends Facts₀ where

variable [Facts]
-- ==== Proof.LibPadSum.lean ====
/-
  A sum against a zero-padded weight.

  Let a weight `w` on `M` positions be placed at offset `o` among `N ≥ o + M` positions and be zero at every other
  position (`pad o w`). A sum of products `∑ k < N, f k * pad o w k` then only sees the `M` positions of the
  window: it is `∑ j < M, f (o + j) * w j`. The terms outside the window are `f k * 0 = 0`, which holds for every
  extended real `f k`, infinite ones included, so no finiteness is assumed.
-/
import Idealize.ShloMosaic.PureOps.Ideal.Laws

namespace PadSum

open scoped BigOperators

/-- The weight `w` placed at offset `o`, zero elsewhere. -/
noncomputable def pad {N M : ℕ} (o : ℕ) (w : Fin M → EReal) (k : Fin N) : EReal :=
  if h : o ≤ k.val ∧ k.val < o + M then w ⟨k.val - o, by omega⟩ else 0

/-- Inside the window the padded weight is the weight. -/
theorem pad_window {N M : ℕ} (o : ℕ) (w : Fin M → EReal) (j : Fin M) (h : o + j.val < N) :
    pad o w (⟨o + j.val, h⟩ : Fin N) = w j := by
  unfold pad
  rw [dif_pos ⟨by show o ≤ o + j.val; omega, by show o + j.val < o + M; have := j.isLt; omega⟩]
  congr 1
  apply Fin.ext
  show o + j.val - o = j.val
  omega

/-- Outside the window the padded weight is zero. -/
theorem pad_outside {N M : ℕ} (o : ℕ) (w : Fin M → EReal) (k : Fin N) (h : ¬ (o ≤ k.val ∧ k.val < o + M)) :
    pad o w k = 0 := by
  unfold pad
  rw [dif_neg h]

/-- A sum of products against the padded weight is the sum over the window. -/
theorem sum_mul_pad {N M : ℕ} (o : ℕ) (hN : o + M ≤ N) (f : Fin N → EReal) (w : Fin M → EReal) :
    ∑ k : Fin N, f k * pad o w k
      = ∑ j : Fin M, f (⟨o + j.val, by have := j.isLt; omega⟩ : Fin N) * w j := by
  let e : Fin M ↪ Fin N :=
    ⟨fun j => ⟨o + j.val, by have := j.isLt; omega⟩, fun a b h => Fin.ext (by
      have h' : o + a.val = o + b.val := congrArg Fin.val h
      omega)⟩
  rw [← Finset.sum_subset (Finset.subset_univ (Finset.univ.map e))]
  · rw [Finset.sum_map]
    refine Finset.sum_congr rfl fun j _ => ?_
    show f (⟨o + j.val, _⟩ : Fin N) * pad o w (⟨o + j.val, _⟩ : Fin N) = _
    rw [pad_window]
  · intro k _ hk
    rw [pad_outside o w k, mul_zero]
    intro h
    refine hk (Finset.mem_map.mpr ⟨⟨k.val - o, by omega⟩, Finset.mem_univ _, Fin.ext ?_⟩)
    show o + (k.val - o) = k.val
    omega

end PadSum
-- ==== Proof.GruCell.lean ====
/-
  One row of a time-aware GRU memory update, as a function of that row.

  A row `x` of 386 numbers is laid out as [last-update time | (unused) | message, 256 wide | memory, 128 wide], and
  comes with the time `τ` of the current event. The update is
    * the time features  `φ t = cos ((τ - x 0) * ω t + β t)`,  128 of them;
    * the input-side pre-activations  `gi g = (∑ k < 256, x (2 + k) * Wih g k + ∑ t < 128, φ t * Wih g (256 + t)) + bih g`
      (the message and the time features against the two column blocks of `Wih`), 384 of them;
    * the memory-side pre-activations  `gh g = ∑ k < 128, x (258 + k) * Whh g k + bhh g`;
    * the gates  `r = σ (gi h + gh h)`,  `z = σ (gi (128 + h) + gh (128 + h))`,  the candidate
      `c = tanh (gi (256 + h) + r * gh (256 + h))`,  and the new memory  `(1 - z) * c + z * x (258 + h)`.
  Everything is on the extended reals; `σ` is the logistic function `1 / (1 + e⁻ˣ)`.

  A second spelling multiplies the WHOLE row by a 386-row weight that is zero outside the rows it is meant for
  (`giPad`, `ghPad`). The products with the zero rows vanish — `a * 0 = 0` for every extended real `a` —, so the two
  spellings agree (`giPad_eq`, `ghPad_eq`), with no finiteness assumption.
-/
import Idealize.ShloMosaic.PureOps.Ideal
import Idealize.ShloMosaic.Lib.ValueIdx
import proofs.«120630_j10642928959816_2_alg».proof.Proof.LibPadSum

namespace GruCell

open Idealize.ShloMosaic Idealize.ShloMosaic.ValueIdx
open scoped BigOperators

/-- Time feature `t` of the time elapsed since the row's last update. -/
noncomputable def timeFeat (x : Fin 386 → EReal) (τ : EReal) (ω β : Fin 128 → EReal) (t : Fin 128) : EReal :=
  Ideal.cos ((τ - x 0) * ω t + β t)

/-- Input-side pre-activation `g`: the message and the time features against the two column blocks of `Wih`. -/
noncomputable def gi (x : Fin 386 → EReal) (τ : EReal) (ω β : Fin 128 → EReal) (wih : Fin 384 → Fin 384 → EReal)
    (bih : Fin 384 → EReal) (g : Fin 384) : EReal :=
  (∑ k : Fin 256, x ⟨2 + k.val, by have := k.isLt; omega⟩ * wih g ⟨k.val, by have := k.isLt; omega⟩
    + ∑ t : Fin 128, timeFeat x τ ω β t * wih g ⟨256 + t.val, by have := t.isLt; omega⟩) + bih g

/-- Memory-side pre-activation `g`: the memory against `Whh`. -/
noncomputable def gh (x : Fin 386 → EReal) (whh : Fin 384 → Fin 128 → EReal) (bhh : Fin 384 → EReal) (g : Fin 384) :
    EReal :=
  ∑ k : Fin 128, x ⟨258 + k.val, by have := k.isLt; omega⟩ * whh g k + bhh g

/-- The gates, the candidate and the blend with the old memory `mem`, from the two rows of pre-activations. -/
noncomputable def blend (a b : Fin 384 → EReal) (mem : Fin 128 → EReal) (h : Fin 128) : EReal :=
  (1 - Ideal.logistic (a ⟨128 + h.val, by have := h.isLt; omega⟩ + b ⟨128 + h.val, by have := h.isLt; omega⟩))
      * Ideal.tanh (a ⟨256 + h.val, by have := h.isLt; omega⟩
          + Ideal.logistic (a ⟨h.val, by have := h.isLt; omega⟩ + b ⟨h.val, by have := h.isLt; omega⟩)
            * b ⟨256 + h.val, by have := h.isLt; omega⟩)
    + Ideal.logistic (a ⟨128 + h.val, by have := h.isLt; omega⟩ + b ⟨128 + h.val, by have := h.isLt; omega⟩) * mem h

/-- The new memory of one row, entry `h`. -/
noncomputable def cell (x : Fin 386 → EReal) (τ : EReal) (ω β : Fin 128 → EReal) (wih : Fin 384 → Fin 384 → EReal)
    (bih : Fin 384 → EReal) (whh : Fin 384 → Fin 128 → EReal) (bhh : Fin 384 → EReal) (h : Fin 128) : EReal :=
  blend (gi x τ ω β wih bih) (gh x whh bhh) (fun h => x ⟨258 + h.val, by have := h.isLt; omega⟩) h

/-- The input-side pre-activation spelt with a 386-row weight `wpad` for the whole row and a 128-row weight `wt`
    for the time features. -/
noncomputable def giPad (x : Fin 386 → EReal) (τ : EReal) (ω β : Fin 128 → EReal) (wpad : Fin 386 → Fin 384 → EReal)
    (wt : Fin 128 → Fin 384 → EReal) (bih : Fin 384 → EReal) (g : Fin 384) : EReal :=
  (∑ k : Fin 386, x k * wpad k g + ∑ t : Fin 128, timeFeat x τ ω β t * wt t g) + bih g

/-- The memory-side pre-activation spelt with a 386-row weight for the whole row. -/
noncomputable def ghPad (x : Fin 386 → EReal) (wpad : Fin 386 → Fin 384 → EReal) (bhh : Fin 384 → EReal)
    (g : Fin 384) : EReal :=
  ∑ k : Fin 386, x k * wpad k g + bhh g

/-- With the message block of `Wih`, transposed, in rows 2 … 257 of `wpad` and zero elsewhere, and the time block of
    `Wih`, transposed, as `wt`, the padded spelling is `gi`. -/
theorem giPad_eq (x : Fin 386 → EReal) (τ : EReal) (ω β : Fin 128 → EReal) (wih : Fin 384 → Fin 384 → EReal)
    (bih : Fin 384 → EReal) (wpad : Fin 386 → Fin 384 → EReal) (wt : Fin 128 → Fin 384 → EReal)
    (hpad : ∀ k g, wpad k g
      = PadSum.pad 2 (fun j : Fin 256 => wih g ⟨j.val, by have := j.isLt; omega⟩) k)
    (hwt : ∀ t g, wt t g = wih g ⟨256 + t.val, by have := t.isLt; omega⟩) (g : Fin 384) :
    giPad x τ ω β wpad wt bih g = gi x τ ω β wih bih g := by
  unfold giPad gi
  congr 2
  · rw [Finset.sum_congr rfl fun k _ => by rw [hpad k g]]
    exact PadSum.sum_mul_pad 2 (by omega) x _
  · exact Finset.sum_congr rfl fun t _ => by rw [hwt t g]

/-- With `Whh`, transposed, in rows 258 … 385 of `wpad` and zero elsewhere, the padded spelling is `gh`. -/
theorem ghPad_eq (x : Fin 386 → EReal) (whh : Fin 384 → Fin 128 → EReal) (bhh : Fin 384 → EReal)
    (wpad : Fin 386 → Fin 384 → EReal)
    (hpad : ∀ k g, wpad k g = PadSum.pad 258 (fun j : Fin 128 => whh g j) k) (g : Fin 384) :
    ghPad x wpad bhh g = gh x whh bhh g := by
  unfold ghPad gh
  congr 1
  rw [Finset.sum_congr rfl fun k _ => by rw [hpad k g]]
  exact PadSum.sum_mul_pad 258 (by omega) x _

/-! ## The arrays as rows

The data come as 4 splits of 65536 rows; row `n` of the flattened batch is row `n % 65536` of split `n / 65536`,
and its event time sits at the same place of the time array. -/

/-- Row `n` of the flattened data array. -/
def rowOf (data : (⟨3, ![4, 65536, 386]⟩ : Shape).Idx → EReal) (n : Fin 262144) (k : Fin 386) : EReal :=
  data (ix3 (⟨n.val / 65536, by have := n.isLt; omega⟩ : Fin 4) (⟨n.val % 65536, by omega⟩ : Fin 65536) k)

/-- The event time of row `n`. -/
def stampOf (ts : (⟨2, ![4, 65536]⟩ : Shape).Idx → EReal) (n : Fin 262144) : EReal :=
  ts (ix2 (⟨n.val / 65536, by have := n.isLt; omega⟩ : Fin 4) (⟨n.val % 65536, by omega⟩ : Fin 65536))

/-- A rank-1 array as a function of its coordinate. -/
def vecOf {n : ℕ} (v : (⟨1, ![n]⟩ : Shape).Idx → EReal) (k : Fin n) : EReal := v (ix1 k)

/-- A rank-2 array as a function of its two coordinates. -/
def matOf {a b : ℕ} (w : (⟨2, ![a, b]⟩ : Shape).Idx → EReal) (i : Fin a) (j : Fin b) : EReal := w (ix2 i j)

/-- The updated memory of every row: entry `(n, h)` is the cell of row `n` at `h`. -/
noncomputable def G (data : (⟨3, ![4, 65536, 386]⟩ : Shape).Idx → EReal) (ts : (⟨2, ![4, 65536]⟩ : Shape).Idx → EReal)
    (tw tb : (⟨1, ![128]⟩ : Shape).Idx → EReal) (wih : (⟨2, ![384, 384]⟩ : Shape).Idx → EReal)
    (bih : (⟨1, ![384]⟩ : Shape).Idx → EReal) (whh : (⟨2, ![384, 128]⟩ : Shape).Idx → EReal)
    (bhh : (⟨1, ![384]⟩ : Shape).Idx → EReal) : (⟨2, ![262144, 128]⟩ : Shape).Idx → EReal :=
  fun i => cell (rowOf data (i 0)) (stampOf ts (i 0)) (vecOf tw) (vecOf tb) (matOf wih) (vecOf bih) (matOf whh)
    (vecOf bhh) (i 1)

end GruCell
-- ==== Proof.LibPlainDot.lean ====
/-
  A plain matrix product read at an entry.

  Both programs multiply matrices with the dimension numbers "contract the left operand's columns with the
  right operand's rows, no batch axis" (`DotDims.plain M K N`). On the extended reals the kernel's matrix unit
  accumulating into zero and the host's `dot_general` are the same contraction; this module reads either at the
  entry `(p, q)` as the textbook sum `∑ k, lhs (p, k) * rhs (k, q)` over the `K` contracted coordinates, for any
  extents. The contraction index of the library is a one-coordinate index; the bijection with `Fin K` moves the sum.
-/
import Idealize.ShloMosaic.PureOps.Ideal.Laws
import Idealize.ShloMosaic.Lib.ValueIdx

namespace Gcn.Lib

open Idealize.ShloMosaic Idealize.ShloMosaic.ValueIdx

variable {M K N : ℕ}

/-- The left operand's index at output entry `(p, q)` and contracted coordinate `k` is `(p, k)`. -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single (cl := 1) rfl _ _).trans hk

/-- The right operand's index at output entry `(p, q)` and contracted coordinate `k` is `(k, q)`. -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ => exact ((DotDims.plain M K N).rhsIdx_val_of_single (cr := 0) rfl _ _).trans hk
  | ⟨1, _⟩ => rfl

/-- The contraction of a plain product at entry `(p, q)` is the sum over the `K` contracted coordinates. -/
theorem plain_contraction (lhs : (⟨2, ![M, K]⟩ : Shape).Idx → EReal) (rhs : (⟨2, ![K, N]⟩ : Shape).Idx → EReal)
    (p : Fin M) (q : Fin N) :
    ∑ k : (DotDims.plain M K N).contr.Idx,
        lhs ((DotDims.plain M K N).lhsIdx (ix2 p q) k) * rhs ((DotDims.plain M K N).rhsIdx (ix2 p q) k)
      = ∑ k : Fin K, lhs (ix2 p k) * rhs (ix2 k q) := by
  rw [← Equiv.sum_comp (contrEquiv1 (DotDims.plain M K N) K rfl rfl).symm]
  refine Finset.sum_congr rfl fun k _ => ?_
  rw [plain_lhsIdx, plain_rhsIdx]

/-- The kernel's matrix unit accumulating into the zero vector, read at entry `(p, q)`. -/
theorem plain_matmul_zero_apply {φ₁ φ₂ : FTy} (lhs : FVec Ideal ⟨2, ![M, K]⟩ φ₁) (rhs : FVec Ideal ⟨2, ![K, N]⟩ φ₂)
    (prec : Option ContractPrecision) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) :=
  (Ideal.matmul_constant_zero_apply (DotDims.plain M K N) prec lhs rhs (ix2 p q)).trans (plain_contraction lhs rhs p q)

/-- The host's `dot_general`, read at entry `(p, q)`: the same sum. -/
theorem plain_dotGeneral_apply {φ₁ φ₂ : FTy} (lhs : FVec Ideal ⟨2, ![M, K]⟩ φ₁) (rhs : FVec Ideal ⟨2, ![K, N]⟩ φ₂)
    (prec : Option ContractPrecision) (sched : HostSchedule) (p : Fin M) (q : Fin N) :
    FloatOps.dotGeneral (DotDims.plain M K N) prec sched lhs rhs (ix2 p q)
      = ∑ k : Fin K, lhs (ix2 p k) * rhs (ix2 k q) :=
  (Ideal.dotGeneral_apply (DotDims.plain M K N) prec sched lhs rhs (ix2 p q)).trans (plain_contraction lhs rhs p q)

end Gcn.Lib
-- ==== Proof.LibDotRecord.lean ====
/-
  A printed matrix-product record read as the plain product, and a row vector broadcast down the rows.

  A matrix product of an [M, K] by a [K, N] operand that contracts the left operand's columns with the right
  operand's rows and has no batch axis is determined by its six lists of axes; the record's last field is a proof.
  So any record with those lists IS the plain record, and every lemma about the plain product reads it: at entry
  (p, q) the product accumulated into zero is the sum over k of lhs (p, k) * rhs (k, q).
  A [1, b] row broadcast over [a, b] reads, at (r, c), the row's entry c.
-/
import proofs.«120630_j10642928959816_2_alg».proof.Proof.LibPlainDot
import Idealize.ShloMosaic.Lib.Pipeline.Value

namespace DotRecord

open Idealize.ShloMosaic Idealize.ShloMosaic.ValueIdx

variable {M K N : ℕ}

/-- A record whose six axis lists are the plain product's is the plain product's record. -/
theorem eq_plain (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = []) :
    d = DotDims.plain M K N := by
  obtain ⟨lc, rc, ln, rn, lb, rb, wf⟩ := d
  simp only at h1 h2 h3 h4 h5 h6
  subst h1 h2 h3 h4 h5 h6
  rfl

/-- The matrix unit accumulating into the zero vector, under any record with the plain lists, at entry (p, q). -/
theorem matmul_zero_apply {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (lhs : FVec Ideal ⟨2, ![M, K]⟩ φ₁) (rhs : FVec Ideal ⟨2, ![K, N]⟩ φ₂)
    (prec : Option ContractPrecision) (p : Fin M) (q : Fin N) :
    FloatOps.matmul d prec lhs rhs (constant ⟨2, ![M, N]⟩ .f32 0x00000000#32) (ix2 p q)
      = ∑ k : Fin K, lhs (ix2 p k) * rhs (ix2 k q) := by
  rw [eq_plain d h1 h2 h3 h4 h5 h6]
  exact Gcn.Lib.plain_matmul_zero_apply lhs rhs prec p q

/-- A row [1, b] broadcast over [a, b] reads, at (r, c), the row's entry c. -/
theorem broadcastTo_1b_ab_apply {α : Type} {a b : ℕ} (v : (⟨2, ![1, b]⟩ : Shape).Idx → α)
    (h : (⟨2, ![1, b]⟩ : Shape).Broadcasts ⟨2, ![a, b]⟩) (r : Fin a) (c : Fin b) :
    broadcastTo ⟨2, ![a, b]⟩ v h (ix2 r c) = v (ix2 (0 : Fin 1) c) := by
  refine broadcastTo_apply v h (ix2 r c) (ix2 (0 : Fin 1) c) fun ax => ?_
  match ax with
  | ⟨0, _⟩ =>
    show (0 : ℕ) = if (1 : ℕ) = 1 then 0 else r.val
    rw [if_pos rfl]
  | ⟨1, _⟩ =>
    show c.val = if b = 1 then 0 else c.val
    split
    · have := c.isLt; omega
    · rfl

end DotRecord
-- ==== Proof.LibRowOps.lean ====
/-
  Sums along the feature axis, and the keep-dimension column forms, read at an entry.

  A tile with nodes down its rows and features across its columns is reduced along axis 1: the result at row p is
  the sum of that row's b entries. On the extended reals the reduction from the zero accumulator is that plain
  sum. A per-row statistic is then kept as a one-column matrix: a length-a vector cast to [a, 1] reads its entry
  p at (p, 0), and the column broadcast across b columns reads (p, 0) at every (p, c). Every extent is generic.
-/
import Idealize.ShloMosaic.PureOps.Ideal.Laws
import Idealize.ShloMosaic.Lib.ValueIdx
import Idealize.ShloMosaic.Lib.Pipeline.Value

namespace RowOps

open Idealize.ShloMosaic Idealize.ShloMosaic.ValueIdx

variable {a b : ℕ}

/-- Row p with the feature coordinate k put back on axis 1 is the entry (p, k). -/
theorem lift_row (h : Shape.Reduces ⟨2, ![a, b]⟩ [1] ⟨1, ![a]⟩) (p : Fin a) (k : Fin b) :
    h.lift (ix1 p) k = ix2 p k := by
  funext d
  apply Fin.ext
  match d with
  | ⟨0, h0⟩ =>
    show h.liftVal (ix1 p) k.val ⟨0, h0⟩ = p.val
    unfold Shape.Reduces.liftVal
    split
    · next hc => exact absurd hc Nat.zero_ne_one
    · split
      · rfl
      · next hlt => exact absurd Nat.zero_lt_one hlt
  | ⟨1, h1⟩ =>
    show h.liftVal (ix1 p) k.val ⟨1, h1⟩ = k.val
    unfold Shape.Reduces.liftVal
    split
    · rfl
    · next hc => exact absurd rfl hc

/-- A sum along axis 1 from the zero accumulator, at row p: the sum of the row's b entries. -/
theorem rowSum_apply (v : FVec Ideal ⟨2, ![a, b]⟩ .f32) (h : Shape.Reduces ⟨2, ![a, b]⟩ [1] ⟨1, ![a]⟩)
    (hφ : FKind.Formats .f32) (hacc : (0x00000000#32 : BitVec 32) = FKind.add.neutral .f32 hφ) (p : Fin a) :
    multiReduction .add [1] ⟨1, ![a]⟩ v 0x00000000#32 h hφ hacc (ix1 p) = ∑ k : Fin b, v (ix2 p k) := by
  refine (Ideal.multiReduction_add_single v 0x00000000#32 h hφ hacc (ix1 p)).trans ?_
  exact Finset.sum_congr rfl fun k _ => congrArg v (lift_row h p k)

variable {α : Type}

/-- A length-a vector cast to the column [a, 1] reads, at (p, u), the vector's entry p. -/
theorem shapeCast_a_a1_apply (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column [a, 1] broadcast over [a, b] reads, at (p, c), the column's entry (p, 0). -/
theorem broadcastTo_a1_ab_apply (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

end RowOps
-- ==== Proof.LibLay2.lean ====
/-
  Two layout operations on rank-2 arrays read at an entry: the transpose, and a unit-stride block cut out of an
  array with the block's offset added to the coordinates. Every extent generic.
-/
import Idealize.ShloMosaic.Lib.ValueIdx
import Idealize.ShloMosaic.Lib.Pipeline.Value

namespace Lay2

open Idealize.ShloMosaic Idealize.ShloMosaic.ValueIdx

/-- The transpose of an [a, b] array at entry (i, j) is the array at (j, i). -/
theorem transpose_apply {α : Type} {a b : ℕ} (x : (⟨2, ![a, b]⟩ : Shape).Idx → α)
    (h : (⟨2, ![a, b]⟩ : Shape).Transposes [1, 0] ⟨2, ![b, a]⟩) (i : Fin b) (j : Fin a) :
    transpose ⟨2, ![b, a]⟩ [1, 0] x h (ix2 i j) = x (ix2 j i) := by
  refine Idealize.ShloMosaic.transpose_apply [1, 0] x h (ix2 i j) (ix2 j i) fun c => ?_
  match c with
  | ⟨0, _⟩ => rfl
  | ⟨1, _⟩ => rfl

/-- A unit-stride block of extents [c, d] cut out of an [a, b] array at offsets (o₀, o₁), at entry (i, j), is the
    array at (o₀ + i, o₁ + j). -/
theorem slice_apply {α : Type} {a b c d : ℕ} (o₀ o₁ : ℕ) (x : (⟨2, ![a, b]⟩ : Shape).Idx → α)
    (h : (⟨2, ![a, b]⟩ : Shape).Slices ![o₀, o₁] ⟨2, ![c, d]⟩) (i : Fin c) (j : Fin d)
    (hi : o₀ + i.val < a) (hj : o₁ + j.val < b) :
    extractStridedSlice ⟨2, ![c, d]⟩ ![o₀, o₁] x h (ix2 i j) = x (ix2 ⟨o₀ + i.val, hi⟩ ⟨o₁ + j.val, hj⟩) := by
  refine extractStridedSlice_apply ![o₀, o₁] x h (ix2 i j) (ix2 ⟨o₀ + i.val, hi⟩ ⟨o₁ + j.val, hj⟩) fun c => ?_
  match c with
  | ⟨0, _⟩ => rfl
  | ⟨1, _⟩ => rfl

end Lay2
-- ==== Proof.BodyCell.lean ====
/-
  The kernel's body on one tile, entry by entry.

  The body receives a tile of 2048 rows (386 wide), their event times, the two time-encoding vectors, two 386-row
  weights meant for the whole row (zero outside the rows that matter), a 128-row weight for the time features and the
  two biases. It multiplies the whole tile by each 386-row weight on the matrix unit (accumulating into zero), the
  time features by the 128-row weight, adds the biases, and blends. Read at entry `(p, h)` of the tile, each matrix
  product is the plain sum over the contracted axis, so the two rows of pre-activations are `GruCell.giPad` and
  `GruCell.ghPad` of row `p`, and the stored value is `GruCell.blend` of them and of the row's memory.
  A change of float format is the identity on the extended reals, so the casts to the narrow format drop out.
-/
import proofs.«120630_j10642928959816_2_alg».proof.Proof.Gen.KernelIdeal.Value
import proofs.«120630_j10642928959816_2_alg».proof.Proof.GruCell
import proofs.«120630_j10642928959816_2_alg».proof.Proof.LibDotRecord
import proofs.«120630_j10642928959816_2_alg».proof.Proof.LibRowOps
import proofs.«120630_j10642928959816_2_alg».proof.Proof.LibLay2
import Idealize.ShloMosaic.Lib.IdealHost

noncomputable section

namespace Cert.KernelIdeal.BodyCell

open Cert.KernelIdeal Cert.KernelIdeal.Gen Cert.KernelIdeal.Value Idealize.ShloMosaic
open Idealize.ShloMosaic.ValueIdx GruCell

variable (P0 : Vec Ideal S2048x386 .f32) (P1 : Vec Ideal S2048x1 .f32) (P2 P3 : Vec Ideal S1x128 .f32)
  (P4 : Vec Ideal S386x384 .bf16) (P5 : Vec Ideal S128x384 .bf16) (P6 : Vec Ideal S1x384 .f32)
  (P7 : Vec Ideal S386x384 .bf16) (P8 : Vec Ideal S1x384 .f32)

/-- Row `p` of the tile. -/
abbrev tileRow (p : Fin 2048) : Fin 386 → EReal := fun k => P0 (ix2 p k)

/-- The time features of the tile at `(p, t)`. -/
theorem timeFeat_tile (Q0 : FVec Ideal S2048x386 .f32) (Q1 : FVec Ideal S2048x1 .f32) (Q2 Q3 : FVec Ideal S1x128 .f32)
    (p : Fin 2048) (t : Fin 128) :
    (cos (F := Ideal) (addf (mulf (broadcastTo S2048x128 (subf Q1 (extractStridedSlice S2048x1 ![0, 0] Q0
            slices_S2048x386_o0_0_S2048x1)) broadcasts_S2048x1_S2048x128)
          (broadcastTo S2048x128 Q2 broadcasts_S1x128_S2048x128))
        (broadcastTo S2048x128 Q3 broadcasts_S1x128_S2048x128)) : FVec Ideal S2048x128 .f32) (ix2 p t)
      = timeFeat (fun k => Q0 (ix2 p k)) (Q1 (ix2 p 0)) (fun t => Q2 (ix2 0 t)) (fun t => Q3 (ix2 0 t)) t := by
  show FloatOps.cos ((addf (mulf _ _) _) (ix2 p t)) = _
  rw [addf_apply, mulf_apply, RowOps.broadcastTo_a1_ab_apply, DotRecord.broadcastTo_1b_ab_apply,
    DotRecord.broadcastTo_1b_ab_apply, subf_apply,
    Lay2.slice_apply 0 0 Q0 slices_S2048x386_o0_0_S2048x1 p (0 : Fin 1) (by have := p.isLt; omega) (by decide)]
  have e : (ix2 (⟨0 + p.val, by have := p.isLt; omega⟩ : Fin 2048) (⟨0 + (0 : Fin 1).val, by decide⟩ : Fin 386)
      : S2048x386.Idx) = ix2 p 0 := by
    funext a
    apply Fin.ext
    match a with
    | ⟨0, _⟩ => exact Nat.zero_add _
    | ⟨1, _⟩ => rfl
  rw [e]
  rfl

/-- The input-side pre-activations of the tile at `(p, g)`. -/
theorem pay5_entry (p : Fin 2048) (g : Fin 384) :
    k0_pay5 (F := Ideal) P0 P1 P2 P3 P4 P5 P6 (ix2 p g)
      = giPad (tileRow P0 p) (P1 (ix2 p 0)) (fun t => P2 (ix2 0 t)) (fun t => P3 (ix2 0 t))
          (fun k g => P4 (ix2 k g)) (fun t g => P5 (ix2 t g)) (fun g => P6 (ix2 0 g)) g := by
  simp only [k0_pay5, k0_pay4, k0_pay2, shapeCast_self, matmul]
  rw [addf_apply, addf_apply,
    DotRecord.matmul_zero_apply dot_S2048x386_S386x384_S2048x384_1_0_0_1_n_n rfl rfl rfl rfl rfl rfl,
    DotRecord.matmul_zero_apply dot_S2048x128_S128x384_S2048x384_1_0_0_1_n_n rfl rfl rfl rfl rfl rfl,
    DotRecord.broadcastTo_1b_ab_apply]
  unfold giPad
  congr 2
  refine Finset.sum_congr rfl fun t _ => ?_
  congr 1
  exact timeFeat_tile P0 P1 P2 P3 p t

/-- The memory-side pre-activations of the tile at `(p, g)`. -/
theorem pay6_entry (p : Fin 2048) (g : Fin 384) :
    k0_pay6 (F := Ideal) P0 P7 P8 (ix2 p g)
      = ghPad (tileRow P0 p) (fun k g => P7 (ix2 k g)) (fun g => P8 (ix2 0 g)) g := by
  simp only [k0_pay6, k0_pay4, k0_pay2, shapeCast_self, matmul]
  rw [addf_apply,
    DotRecord.matmul_zero_apply dot_S2048x386_S386x384_S2048x384_1_0_0_1_n_n rfl rfl rfl rfl rfl rfl,
    DotRecord.broadcastTo_1b_ab_apply]
  rfl

/-- A 128-wide column block of the pre-activations, cut at offset `o`, at `(p, h)`. -/
theorem idx_block (o : ℕ) (p : Fin 2048) (h : Fin 128) (ho : o + h.val < 384)
    (i : S2048x384.Idx) (h0 : (i 0).val = p.val) (h1 : (i 1).val = o + h.val) :
    i = ix2 p (⟨o + h.val, ho⟩ : Fin 384) := by
  funext a
  apply Fin.ext
  match a with
  | ⟨0, _⟩ => exact h0
  | ⟨1, _⟩ => exact h1

/-- What the body leaves in the output tile at `(p, h)`: the blend of row `p`'s pre-activations and memory. -/
theorem E9_entry (p : Fin 2048) (h : Fin 128) :
    E9 (F := Ideal) P0 P1 P2 P3 P4 P5 P6 P7 P8 (ix2 p h)
      = blend
          (giPad (tileRow P0 p) (P1 (ix2 p 0)) (fun t => P2 (ix2 0 t)) (fun t => P3 (ix2 0 t))
            (fun k g => P4 (ix2 k g)) (fun t g => P5 (ix2 t g)) (fun g => P6 (ix2 0 g)))
          (ghPad (tileRow P0 p) (fun k g => P7 (ix2 k g)) (fun g => P8 (ix2 0 g)))
          (fun h => tileRow P0 p ⟨258 + h.val, by have := h.isLt; omega⟩) h := by
  have hh := h.isLt
  have i0 : ix9_0 (ix2 p h) = ix2 p (⟨128 + h.val, by omega⟩ : Fin 384) :=
    idx_block 128 p h (by omega) _ rfl (Nat.add_comm _ _)
  have i1 : ix9_1 (ix2 p h) = ix2 p (⟨128 + h.val, by omega⟩ : Fin 384) :=
    idx_block 128 p h (by omega) _ rfl (Nat.add_comm _ _)
  have i2 : ix9_2 (ix2 p h) = ix2 p (⟨256 + h.val, by omega⟩ : Fin 384) :=
    idx_block 256 p h (by omega) _ rfl (Nat.add_comm _ _)
  have i3 : ix9_3 (ix2 p h) = ix2 p (⟨h.val, by omega⟩ : Fin 384) := by
    funext a; apply Fin.ext; match a with | ⟨0, _⟩ => rfl | ⟨1, _⟩ => rfl
  have i4 : ix9_4 (ix2 p h) = ix2 p (⟨h.val, by omega⟩ : Fin 384) := by
    funext a; apply Fin.ext; match a with | ⟨0, _⟩ => rfl | ⟨1, _⟩ => rfl
  have i5 : ix9_5 (ix2 p h) = ix2 p (⟨256 + h.val, by omega⟩ : Fin 384) :=
    idx_block 256 p h (by omega) _ rfl (Nat.add_comm _ _)
  have i6 : ix9_6 (ix2 p h) = ix2 p (⟨128 + h.val, by omega⟩ : Fin 384) :=
    idx_block 128 p h (by omega) _ rfl (Nat.add_comm _ _)
  have i7 : ix9_7 (ix2 p h) = ix2 p (⟨128 + h.val, by omega⟩ : Fin 384) :=
    idx_block 128 p h (by omega) _ rfl (Nat.add_comm _ _)
  have i8 : ix9_8 (ix2 p h) = ix2 p (⟨258 + h.val, by omega⟩ : Fin 386) := by
    funext a; apply Fin.ext
    match a with
    | ⟨0, _⟩ => rfl
    | ⟨1, _⟩ => exact Nat.add_comm _ _
  simp only [E9]
  rw [i0, i1, i2, i3, i4, i5, i6, i7, i8]
  simp only [pay5_entry, pay6_entry]
  simp only [Ideal.addf_def, Ideal.subf_def, Ideal.mulf_def, Ideal.logistic_def, Ideal.tanh_def]
  have hone : Scalar.ofBits (F := Ideal) .f32 0x3F800000#32 = 1 := Ideal.ofBits_one_f32
  rw [hone]
  rfl

end Cert.KernelIdeal.BodyCell

end
-- ==== Proof.LibScatterSet.lean ====
/-
  An overwriting scatter read at an entry.

  A scatter whose body returns the update (`x.at[…].set(u)`) walks the update's entries in row-major order and,
  for each one whose landing index is inside the operand, replaces the operand's entry there by the update's.
  When every update entry `j` lands inside, at `e j`, and `e` is injective, no entry is written twice: the result
  holds the update's entry `j` at `e j`, and the operand's own entry at every index outside the range of `e`.
  The order of the walk then plays no role. Everything here is generic in the shapes and in the element type.
-/
import Idealize.ShloMosaic.PureOps
import Idealize.ShloMosaic.Lib.ValueIdx

namespace ScatterSet

open Idealize.ShloMosaic Idealize.ShloMosaic.ValueIdx

section Fold

variable {α ι κ : Type}

/-- A walk whose every step leaves index `i` alone ends with index `i` as it began. -/
theorem foldl_miss (step : (ι → α) → κ → ι → α) (g : κ → Option ι)
    (hmiss : ∀ r k i, g k ≠ some i → step r k i = r i)
    (l : List κ) (x : ι → α) (i : ι) (h : ∀ k ∈ l, g k ≠ some i) : l.foldl step x i = x i := by
  induction l generalizing x with
  | nil => rfl
  | cons k l ih =>
    rw [List.foldl_cons, ih (step x k) fun k' hk' => h k' (List.mem_cons_of_mem _ hk')]
    exact hmiss x k i (h k List.mem_cons_self)

/-- A walk over distinct positions, at most one of which lands on index `i`, ends with that position's value
    at `i`. -/
theorem foldl_hit (step : (ι → α) → κ → ι → α) (g : κ → Option ι) (v : κ → α)
    (hmiss : ∀ r k i, g k ≠ some i → step r k i = r i)
    (hhit : ∀ r k i, g k = some i → step r k i = v k)
    (hinj : ∀ k k' i, g k = some i → g k' = some i → k = k')
    (l : List κ) (hl : l.Nodup) (x : ι → α) (k : κ) (hk : k ∈ l) (i : ι) (hi : g k = some i) :
    l.foldl step x i = v k := by
  induction l generalizing x with
  | nil => exact absurd hk List.not_mem_nil
  | cons k₀ l ih =>
    rw [List.foldl_cons]
    rcases List.mem_cons.mp hk with rfl | hkl
    · rw [foldl_miss step g hmiss l (step x k) i fun k' hk' hg =>
        (List.nodup_cons.mp hl).1 ((hinj k k' i hi hg) ▸ hk')]
      exact hhit x k i hi
    · exact ih (List.nodup_cons.mp hl).2 (step x k₀) hkl

end Fold

variable {α : Type} {s si u : Shape} {w : ℕ}

/-- One step of the overwriting scatter leaves an index it does not land on alone. -/
private theorem step_miss (d : ScatterDims s si u) (idx : IVec si w) (upd : u.Idx → α)
    (r : s.Idx → α) (n : Fin u.numel) (i : s.Idx) (h : d.resultIdx? (u.rowMajor.symm n) idx ≠ some i) :
    (match d.resultIdx? (u.rowMajor.symm n) idx with
      | some i₀ => fun i' => if i' = i₀ then (fun (_ b : α) => b) (r i₀) (upd (u.rowMajor.symm n)) else r i'
      | none => r) i = r i := by
  generalize d.resultIdx? (u.rowMajor.symm n) idx = o at h ⊢
  cases o with
  | none => rfl
  | some i₀ =>
    have hne : i ≠ i₀ := fun e => h (e ▸ rfl)
    show (if i = i₀ then _ else r i) = r i
    rw [if_neg hne]

/-- One step of the overwriting scatter puts the update's entry at the index it lands on. -/
private theorem step_hit (d : ScatterDims s si u) (idx : IVec si w) (upd : u.Idx → α)
    (r : s.Idx → α) (n : Fin u.numel) (i : s.Idx) (h : d.resultIdx? (u.rowMajor.symm n) idx = some i) :
    (match d.resultIdx? (u.rowMajor.symm n) idx with
      | some i₀ => fun i' => if i' = i₀ then (fun (_ b : α) => b) (r i₀) (upd (u.rowMajor.symm n)) else r i'
      | none => r) i = upd (u.rowMajor.symm n) := by
  generalize d.resultIdx? (u.rowMajor.symm n) idx = o at h ⊢
  cases o with
  | none => exact absurd h (by simp)
  | some i₀ =>
    have he : i = i₀ := (Option.some.inj h).symm
    show (if i = i₀ then upd (u.rowMajor.symm n) else r i) = upd (u.rowMajor.symm n)
    rw [if_pos he]

/-- The overwriting scatter, every update entry `j` landing at `e j` with `e` injective, holds at `e j` the
    update's entry `j`. -/
theorem scatter_set_hit (d : ScatterDims s si u) (x : s.Idx → α) (idx : IVec si w) (upd : u.Idx → α)
    (e : u.Idx → s.Idx) (he : ∀ j, d.resultIdx? j idx = some (e j)) (hinj : Function.Injective e) (j : u.Idx) :
    Host.scatter d (fun _ b => b) x idx upd (e j) = upd j := by
  unfold Host.scatter
  have := foldl_hit (ι := s.Idx) (κ := Fin u.numel)
    (fun r n => match d.resultIdx? (u.rowMajor.symm n) idx with
      | some i₀ => fun i' => if i' = i₀ then (fun (_ b : α) => b) (r i₀) (upd (u.rowMajor.symm n)) else r i'
      | none => r)
    (fun n => d.resultIdx? (u.rowMajor.symm n) idx) (fun n => upd (u.rowMajor.symm n))
    (fun r n i h => step_miss d idx upd r n i h) (fun r n i h => step_hit d idx upd r n i h)
    (fun k k' i hk hk' => by
      rw [he] at hk hk'
      have := hinj ((Option.some.inj hk).trans (Option.some.inj hk').symm)
      exact u.rowMajor.symm.injective this)
    (List.finRange u.numel) (List.nodup_finRange _) x (u.rowMajor j) (List.mem_finRange _) (e j)
    (by rw [Equiv.symm_apply_apply]; exact he j)
  rw [Equiv.symm_apply_apply] at this
  exact this

/-- The overwriting scatter keeps the operand's entry at every index no update entry lands on. -/
theorem scatter_set_miss (d : ScatterDims s si u) (x : s.Idx → α) (idx : IVec si w) (upd : u.Idx → α)
    (e : u.Idx → s.Idx) (he : ∀ j, d.resultIdx? j idx = some (e j)) (i : s.Idx) (hi : ∀ j, e j ≠ i) :
    Host.scatter d (fun _ b => b) x idx upd i = x i := by
  unfold Host.scatter
  exact foldl_miss (ι := s.Idx) (κ := Fin u.numel)
    (fun r n => match d.resultIdx? (u.rowMajor.symm n) idx with
      | some i₀ => fun i' => if i' = i₀ then (fun (_ b : α) => b) (r i₀) (upd (u.rowMajor.symm n)) else r i'
      | none => r)
    (fun n => d.resultIdx? (u.rowMajor.symm n) idx)
    (fun r n i h => step_miss d idx upd r n i h)
    (List.finRange u.numel) x i (fun n _ h => hi (u.rowMajor.symm n) (by rw [he] at h; exact Option.some.inj h))

/-! ## A block of whole rows overwritten

`x.at[o : o + C, :].set(u)` on a matrix: one start index, naming the row axis; the update's two axes are the window's.
Update entry `(i, q)` lands at `(o + i, q)`, always inside when `o + C ≤ A`, and distinct entries land apart. -/

section Rows

variable {A B C : ℕ}

private theorem start_row (d : ScatterDims ⟨2, ![A, B]⟩ ⟨1, ![1]⟩ ⟨2, ![C, B]⟩)
    (h1 : d.updateWindowDims = [0, 1]) (h2 : d.insertedWindowDims = []) (h3 : d.scatterDimsToOperandDims = [0])
    (h4 : d.indexVectorDim = 0) (idx : IVec ⟨1, ![1]⟩ w) (j : (⟨2, ![C, B]⟩ : Shape).Idx) :
    d.start j idx 0 = (idx (ix1 0)).toInt := by
  obtain ⟨uw, iw, sd, iv, wf⟩ := d
  simp only at h1 h2 h3 h4
  subst h1 h2 h3 h4
  unfold ScatterDims.start
  simp only [List.mem_singleton, ↓reduceDIte]
  congr 2
  funext a
  match a with
  | ⟨0, h0⟩ =>
    apply Fin.ext
    have e1 : ∀ z : Fin ((⟨1, ![1]⟩ : Shape).size ⟨0, h0⟩), z.val = 0 := fun z => Nat.lt_one_iff.mp z.isLt
    rw [e1, e1]

private theorem start_col (d : ScatterDims ⟨2, ![A, B]⟩ ⟨1, ![1]⟩ ⟨2, ![C, B]⟩)
    (h1 : d.updateWindowDims = [0, 1]) (h2 : d.insertedWindowDims = []) (h3 : d.scatterDimsToOperandDims = [0])
    (h4 : d.indexVectorDim = 0) (idx : IVec ⟨1, ![1]⟩ w) (j : (⟨2, ![C, B]⟩ : Shape).Idx) :
    d.start j idx 1 = 0 := by
  obtain ⟨uw, iw, sd, iv, wf⟩ := d
  simp only at h1 h2 h3 h4
  subst h1 h2 h3 h4
  unfold ScatterDims.start
  simp

private theorem window_rc (d : ScatterDims ⟨2, ![A, B]⟩ ⟨1, ![1]⟩ ⟨2, ![C, B]⟩)
    (h1 : d.updateWindowDims = [0, 1]) (h2 : d.insertedWindowDims = []) (h3 : d.scatterDimsToOperandDims = [0])
    (h4 : d.indexVectorDim = 0) (j : (⟨2, ![C, B]⟩ : Shape).Idx) :
    d.window j 0 = (j 0).val ∧ d.window j 1 = (j 1).val := by
  obtain ⟨uw, iw, sd, iv, wf⟩ := d
  simp only at h1 h2 h3 h4
  subst h1 h2 h3 h4
  unfold ScatterDims.window ScatterDims.sKept Shape.kept
  constructor
  · simp
    refine congrArg (fun a => (j a).val) ?_
    rfl
  · simp
    refine congrArg (fun a => (j a).val) ?_
    rfl

/-- Where update entry `j` lands: its row moved down by the start row `o`, its column kept. -/
def rowsLand (o : ℕ) (hA : o + C ≤ A) (j : (⟨2, ![C, B]⟩ : Shape).Idx) : (⟨2, ![A, B]⟩ : Shape).Idx :=
  ix2 (⟨o + (j 0).val, by have := idx2_lt0 j; omega⟩ : Fin A) (j 1)

theorem rowsLand_injective (o : ℕ) (hA : o + C ≤ A) : Function.Injective (rowsLand (B := B) o hA) := by
  intro j j' h
  have h0 : o + (j 0).val = o + (j' 0).val := congrArg (fun i : (⟨2, ![A, B]⟩ : Shape).Idx => (i 0).val) h
  have h1 : (j 1).val = (j' 1).val := congrArg (fun i : (⟨2, ![A, B]⟩ : Shape).Idx => (i 1).val) h
  funext a
  apply Fin.ext
  match a with
  | ⟨0, _⟩ => show (j 0).val = (j' 0).val; omega
  | ⟨1, _⟩ => exact h1

/-- Every update entry lands inside the operand, at `rowsLand`. -/
theorem rows_resultIdx (d : ScatterDims ⟨2, ![A, B]⟩ ⟨1, ![1]⟩ ⟨2, ![C, B]⟩)
    (h1 : d.updateWindowDims = [0, 1]) (h2 : d.insertedWindowDims = []) (h3 : d.scatterDimsToOperandDims = [0])
    (h4 : d.indexVectorDim = 0) (idx : IVec ⟨1, ![1]⟩ w) (o : ℕ) (ho : (idx (ix1 0)).toInt = (o : ℤ))
    (hA : o + C ≤ A) (j : (⟨2, ![C, B]⟩ : Shape).Idx) :
    d.resultIdx? j idx = some (rowsLand o hA j) := by
  have hs0 : d.start j idx 0 = (o : ℤ) := (start_row d h1 h2 h3 h4 idx j).trans ho
  have hs1 := start_col d h1 h2 h3 h4 idx j
  obtain ⟨hw0, hw1⟩ := window_rc d h1 h2 h3 h4 j
  have hj0 := idx2_lt0 j
  have hj1 := idx2_lt1 j
  unfold ScatterDims.resultIdx?
  have hall : ∀ a, 0 ≤ d.start j idx a + d.window j a
      ∧ d.start j idx a + d.window j a < (⟨2, ![A, B]⟩ : Shape).size a := by
    intro a
    match a with
    | ⟨0, _⟩ =>
      show 0 ≤ d.start j idx 0 + (d.window j 0 : ℤ) ∧ d.start j idx 0 + (d.window j 0 : ℤ) < (A : ℤ)
      rw [hs0, hw0]; omega
    | ⟨1, _⟩ =>
      show 0 ≤ d.start j idx 1 + (d.window j 1 : ℤ) ∧ d.start j idx 1 + (d.window j 1 : ℤ) < (B : ℤ)
      rw [hs1, hw1]; omega
  rw [dif_pos hall]
  congr 1
  funext a
  apply Fin.ext
  match a with
  | ⟨0, _⟩ =>
    show (d.start j idx 0 + (d.window j 0 : ℤ)).toNat = o + (j 0).val
    rw [hs0, hw0]; omega
  | ⟨1, _⟩ =>
    show (d.start j idx 1 + (d.window j 1 : ℤ)).toNat = (j 1).val
    rw [hs1, hw1]; omega

/-- The matrix with rows `o … o + C - 1` overwritten, read at `(r, q)`: inside the window the update's entry
    `(r - o, q)`, outside it the matrix's own entry. -/
theorem rows_set_apply (d : ScatterDims ⟨2, ![A, B]⟩ ⟨1, ![1]⟩ ⟨2, ![C, B]⟩)
    (h1 : d.updateWindowDims = [0, 1]) (h2 : d.insertedWindowDims = []) (h3 : d.scatterDimsToOperandDims = [0])
    (h4 : d.indexVectorDim = 0) (x : (⟨2, ![A, B]⟩ : Shape).Idx → α) (idx : IVec ⟨1, ![1]⟩ w)
    (upd : (⟨2, ![C, B]⟩ : Shape).Idx → α) (o : ℕ) (ho : (idx (ix1 0)).toInt = (o : ℤ)) (hA : o + C ≤ A)
    (r : Fin A) (q : Fin B) :
    Host.scatter d (fun _ b => b) x idx upd (ix2 r q)
      = if h : o ≤ r.val ∧ r.val < o + C then upd (ix2 (⟨r.val - o, by omega⟩ : Fin C) q) else x (ix2 r q) := by
  have he := rows_resultIdx d h1 h2 h3 h4 idx o ho hA
  by_cases h : o ≤ r.val ∧ r.val < o + C
  · rw [dif_pos h]
    have hl : rowsLand o hA (ix2 (⟨r.val - o, by omega⟩ : Fin C) q) = ix2 r q := by
      funext a
      apply Fin.ext
      match a with
      | ⟨0, _⟩ => show o + (r.val - o) = r.val; omega
      | ⟨1, _⟩ => rfl
    rw [← hl]
    exact scatter_set_hit d x idx upd (rowsLand o hA) he (rowsLand_injective o hA) _
  · rw [dif_neg h]
    refine scatter_set_miss d x idx upd (rowsLand o hA) he (ix2 r q) fun j hj => h ?_
    have h0 : o + (j 0).val = r.val := congrArg (fun i : (⟨2, ![A, B]⟩ : Shape).Idx => (i 0).val) hj
    have := idx2_lt0 j
    omega

end Rows

end ScatterSet
-- ==== Proof.HostPrep.lean ====
/-
  What the region finds: the arrays the host operations prepare before the launch, read at an entry.

  Before the launch the program flattens the data to 262144 rows and the event times to a column, lays the four
  vectors out as rows, and builds three weights in the narrow float format (a change of format is the identity on
  the extended reals):
    * a 386-row weight that is zero except for rows 2 … 257, which hold the message block of `Wih`, transposed
      (a zero matrix with a block of rows overwritten);
    * the time block of `Wih`, transposed (128 rows);
    * a 386-row weight that is zero except for rows 258 … 385, which hold `Whh`, transposed.
  At an entry each is an entry of an argument, or zero: the padded weights are `PadSum.pad` of the weight's row.
-/
import proofs.«120630_j10642928959816_2_alg».proof.Proof.Gen.KernelIdeal.Frame
import proofs.«120630_j10642928959816_2_alg».proof.Proof.GruCell
import proofs.«120630_j10642928959816_2_alg».proof.Proof.LibScatterSet
import proofs.«120630_j10642928959816_2_alg».proof.Proof.LibLay2
import Idealize.ShloMosaic.Lib.StableHlo.Run
import Idealize.ShloMosaic.Lib.IdealHost

noncomputable section

namespace Cert.KernelIdeal.HostPrep

open Cert.KernelIdeal Cert.KernelIdeal.Gen Idealize.ShloMosaic Idealize.ShloMosaic.TcCoe Idealize.SL.Sem
open Idealize.ShloMosaic.ValueIdx GruCell

variable (m : (ℓ : Loc nD τ sig) → Buf (Elt Ideal) ℓ) (c : Dev nD)

/-- The argument arrays as launched, as functions of an index. -/
abbrev a0 : S4x65536x386.Idx → EReal := m ((c : Thread nD τ).loc main_arg0)
abbrev a1 : S4x65536.Idx → EReal := m ((c : Thread nD τ).loc main_arg1)
abbrev a2 : S128.Idx → EReal := m ((c : Thread nD τ).loc main_arg2)
abbrev a3 : S128.Idx → EReal := m ((c : Thread nD τ).loc main_arg3)
abbrev a4 : S384x384.Idx → EReal := m ((c : Thread nD τ).loc main_arg4)
abbrev a5 : S384.Idx → EReal := m ((c : Thread nD τ).loc main_arg5)
abbrev a6 : S384x128.Idx → EReal := m ((c : Thread nD τ).loc main_arg6)
abbrev a7 : S384.Idx → EReal := m ((c : Thread nD τ).loc main_arg7)

/-! ## The arrays as terms of the arguments -/

theorem V_v0 : (V m c main_v0 : S262144x386.Idx → EReal)
    = shapeCast S262144x386 (a0 m c) shapeCasts_S4x65536x386_S262144x386 := by
  dsimp only [Gen.V, Gen.hostOps0]; after_results; rfl

theorem V_v1 : (V m c main_v1 : S262144x1.Idx → EReal)
    = shapeCast S262144x1 (a1 m c) shapeCasts_S4x65536_S262144x1 := by
  dsimp only [Gen.V, Gen.hostOps0]; after_results; rfl

theorem V_v2 : (V m c main_v2 : S1x128.Idx → EReal) = shapeCast S1x128 (a2 m c) shapeCasts_S128_S1x128 := by
  dsimp only [Gen.V, Gen.hostOps0]; after_results; rfl

theorem V_v3 : (V m c main_v3 : S1x128.Idx → EReal) = shapeCast S1x128 (a3 m c) shapeCasts_S128_S1x128 := by
  dsimp only [Gen.V, Gen.hostOps0]; after_results; rfl

theorem V_v4 : (V m c main_v4 : S1x384.Idx → EReal) = shapeCast S1x384 (a5 m c) shapeCasts_S384_S1x384 := by
  dsimp only [Gen.V, Gen.hostOps0]; after_results; rfl

theorem V_v5 : (V m c main_v5 : S1x384.Idx → EReal) = shapeCast S1x384 (a7 m c) shapeCasts_S384_S1x384 := by
  dsimp only [Gen.V, Gen.hostOps0]; after_results; rfl

theorem V_v11 : (V m c main_v11 : S386x384.Idx → EReal)
    = truncf .bf16 (Host.scatter scatter_S386x384_S1_S256x384_01_n_0_0 (fun _ b => b)
        (broadcastInDim S386x384 ![] bcast_S_S386x384 (constant (F := Ideal) S_ .f32 0x00000000#32))
        (broadcastInDim S1 ![] bcast_S_S1 (constantI S_ 32 2#32))
        (transpose S256x384 [1, 0] (extractStridedSlice S384x256 ![0, 0] (a4 m c) slices_S384x384_S384x256_0_0)
          transposes_S384x256_S256x384_1_0)) bitsLt_bf16_f32 := by
  dsimp only [Gen.V, Gen.hostOps0]; after_results; try rfl

theorem V_v14 : (V m c main_v14 : S128x384.Idx → EReal)
    = (truncf (F := Ideal) .bf16 (transpose S128x384 [1, 0] (extractStridedSlice S384x128 ![0, 256] (a4 m c)
        slices_S384x384_S384x128_0_256) transposes_S384x128_S128x384_1_0) bitsLt_bf16_f32 : S128x384.Idx → EReal) := by
  dsimp only [Gen.V, Gen.hostOps0]; after_results; try rfl

theorem V_v19 : (V m c main_v19 : S386x384.Idx → EReal)
    = truncf .bf16 (Host.scatter scatter_S386x384_S1_S128x384_01_n_0_0 (fun _ b => b)
        (broadcastInDim S386x384 ![] bcast_S_S386x384 (constant (F := Ideal) S_ .f32 0x00000000#32))
        (broadcastInDim S1 ![] bcast_S_S1 (constantI S_ 32 258#32))
        (transpose S128x384 [1, 0] (a6 m c) transposes_S384x128_S128x384_1_0)) bitsLt_bf16_f32 := by
  dsimp only [Gen.V, Gen.hostOps0]; after_results; try rfl

/-! ## The same arrays read at an entry -/

/-- The flattened data at `(n, k)` is entry `k` of row `n`. -/
theorem rows_entry (n : Fin 262144) (k : Fin 386) :
    (V m c main_v0 : S262144x386.Idx → EReal) (ix2 n k) = rowOf (a0 m c) n k := by
  rw [V_v0]
  unfold rowOf
  refine shapeCast_apply (a0 m c) shapeCasts_S4x65536x386_S262144x386 (ix2 n k) _ ?_
  rw [Shape.rowMajor_val_three, Shape.rowMajor_val_two]
  have := n.isLt
  show (n.val / 65536 * 65536 + n.val % 65536) * 386 + k.val = n.val * 386 + k.val
  omega

/-- The column of event times at `(n, 0)`. -/
theorem stamps_entry (n : Fin 262144) :
    (V m c main_v1 : S262144x1.Idx → EReal) (ix2 n (0 : Fin 1)) = stampOf (a1 m c) n := by
  rw [V_v1]
  unfold stampOf
  refine shapeCast_apply (a1 m c) shapeCasts_S4x65536_S262144x1 (ix2 n (0 : Fin 1)) _ ?_
  rw [Shape.rowMajor_val_two, Shape.rowMajor_val_two]
  have := n.isLt
  show n.val / 65536 * 65536 + n.val % 65536 = n.val * 1 + 0
  omega

/-- A vector laid out as one row reads its entry `t` at `(0, t)`. -/
theorem row_of_vec {N : ℕ} (v : (⟨1, ![N]⟩ : Shape).Idx → EReal)
    (h : (⟨1, ![N]⟩ : Shape).ShapeCasts ⟨2, ![1, N]⟩) (t : Fin N) :
    shapeCast ⟨2, ![1, N]⟩ v h (ix2 (0 : Fin 1) t) = vecOf v t := by
  unfold vecOf
  refine shapeCast_apply v h _ _ ?_
  rw [Shape.rowMajor_val_one, Shape.rowMajor_val_two]
  show t.val = 0 * N + t.val
  omega

theorem freq_entry (t : Fin 128) : (V m c main_v2 : S1x128.Idx → EReal) (ix2 (0 : Fin 1) t) = vecOf (a2 m c) t := by
  rw [V_v2]; exact row_of_vec _ _ t

theorem phase_entry (t : Fin 128) : (V m c main_v3 : S1x128.Idx → EReal) (ix2 (0 : Fin 1) t) = vecOf (a3 m c) t := by
  rw [V_v3]; exact row_of_vec _ _ t

theorem bih_entry (g : Fin 384) : (V m c main_v4 : S1x384.Idx → EReal) (ix2 (0 : Fin 1) g) = vecOf (a5 m c) g := by
  rw [V_v4]; exact row_of_vec _ _ g

theorem bhh_entry (g : Fin 384) : (V m c main_v5 : S1x384.Idx → EReal) (ix2 (0 : Fin 1) g) = vecOf (a7 m c) g := by
  rw [V_v5]; exact row_of_vec _ _ g

/-- The time block of `Wih`, transposed, at `(t, g)`. -/
theorem wtime_entry (t : Fin 128) (g : Fin 384) :
    (V m c main_v14 : S128x384.Idx → EReal) (ix2 t g)
      = matOf (a4 m c) g ⟨256 + t.val, by have := t.isLt; omega⟩ := by
  rw [V_v14, truncf_apply, Lay2.transpose_apply,
    Lay2.slice_apply 0 256 (a4 m c) slices_S384x384_S384x128_0_256 g t (by have := g.isLt; omega)
      (by have := t.isLt; omega)]
  unfold matOf
  refine congrArg (a4 m c) (funext fun a => Fin.ext ?_)
  match a with
  | ⟨0, _⟩ => exact Nat.zero_add _
  | ⟨1, _⟩ => rfl

/-- The start row of the first overwritten block is 2. -/
theorem start_two :
    ((broadcastInDim S1 ![] bcast_S_S1 (constantI S_ 32 2#32) : IVec S1 32) (ix1 0)).toInt = ((2 : ℕ) : ℤ) := by
  rw [broadcastInDim_scalar_apply]; rfl

/-- The start row of the second overwritten block is 258. -/
theorem start_258 :
    ((broadcastInDim S1 ![] bcast_S_S1 (constantI S_ 32 258#32) : IVec S1 32) (ix1 0)).toInt = ((258 : ℕ) : ℤ) := by
  rw [broadcastInDim_scalar_apply]; rfl

/-- The 386-row weight for the input side at `(k, g)`: the message block of `Wih`, transposed, in rows 2 … 257,
    zero elsewhere. -/
theorem wpadIh_entry (k : Fin 386) (g : Fin 384) :
    (V m c main_v11 : S386x384.Idx → EReal) (ix2 k g)
      = PadSum.pad 2 (fun j : Fin 256 => matOf (a4 m c) g ⟨j.val, by have := j.isLt; omega⟩) k := by
  rw [V_v11, truncf_apply,
    ScatterSet.rows_set_apply scatter_S386x384_S1_S256x384_01_n_0_0 rfl rfl rfl rfl _ _ _ 2 start_two (by omega) k g]
  unfold PadSum.pad
  by_cases h : 2 ≤ k.val ∧ k.val < 2 + 256
  · rw [dif_pos h, dif_pos h, Lay2.transpose_apply,
      Lay2.slice_apply 0 0 (a4 m c) slices_S384x384_S384x256_0_0 g ⟨k.val - 2, by omega⟩
        (by have := g.isLt; omega) (by omega)]
    unfold matOf
    refine congrArg (a4 m c) (funext fun a => Fin.ext ?_)
    match a with
    | ⟨0, _⟩ => exact Nat.zero_add _
    | ⟨1, _⟩ => exact Nat.zero_add _
  · rw [dif_neg h, dif_neg h, broadcastInDim_scalar_apply, constant_apply, Ideal.ofBits_zero_f32]

/-- The 386-row weight for the memory side at `(k, g)`: `Whh`, transposed, in rows 258 … 385, zero elsewhere. -/
theorem wpadHh_entry (k : Fin 386) (g : Fin 384) :
    (V m c main_v19 : S386x384.Idx → EReal) (ix2 k g)
      = PadSum.pad 258 (fun j : Fin 128 => matOf (a6 m c) g j) k := by
  rw [V_v19, truncf_apply,
    ScatterSet.rows_set_apply scatter_S386x384_S1_S128x384_01_n_0_0 rfl rfl rfl rfl _ _ _ 258 start_258 (by omega) k g]
  unfold PadSum.pad
  by_cases h : 258 ≤ k.val ∧ k.val < 258 + 128
  · rw [dif_pos h, dif_pos h, Lay2.transpose_apply]
    rfl
  · rw [dif_neg h, dif_neg h, broadcastInDim_scalar_apply, constant_apply, Ideal.ofBits_zero_f32]

end Cert.KernelIdeal.HostPrep

end
-- ==== Proof.KernelArray.lean ====
/-
  From tiles to the array: what the kernel's result array holds after the run.

  The grid has 128 points; point `t` works on rows `2048 t … 2048 t + 2047` of the flattened data and of the
  event times, sees the vectors and the three weights whole, and writes back rows `2048 t … 2048 t + 2047` of the
  result. So entry `(p, h)` of the tile written back at point `t` is the GRU cell of row `2048 t + p` at `h`
  (the padded spelling of the body is the cell's, `GruCell.giPad_eq` and `GruCell.ghPad_eq`), which is entry
  `(2048 t + p, h)` of `GruCell.G` of the arguments. The 128 blocks of 2048 rows cover all 262144 rows — row `r`
  lies in the block of point `r / 2048` —, so the result array IS `GruCell.G` of the arguments.
-/
import proofs.«120630_j10642928959816_2_alg».proof.Proof.Gen.KernelIdeal.Value
import proofs.«120630_j10642928959816_2_alg».proof.Proof.GruCell
import proofs.«120630_j10642928959816_2_alg».proof.Proof.BodyCell
import proofs.«120630_j10642928959816_2_alg».proof.Proof.HostPrep

set_option maxRecDepth 16384

noncomputable section

namespace Cert.KernelIdeal.KernelArray

open Cert.KernelIdeal Cert.KernelIdeal.Gen Cert.KernelIdeal.Value Idealize.ShloMosaic Idealize.ShloMosaic.TcCoe
open Idealize.SL.Sem Idealize.ShloMosaic.ValueIdx GruCell Cert.KernelIdeal.HostPrep
open Idealize.ShloMosaic.Pipeline (Dat)

variable (m : (ℓ : Loc nD τ sig) → Buf (Elt Ideal) ℓ) (ρ : Dev nD → PrngReg)

/-- The result array as one function of the argument arrays. -/
abbrev GA (c : Dev nD) : S262144x128.Idx → EReal :=
  G (a0 m c) (a1 m c) (a2 m c) (a3 m c) (a4 m c) (a5 m c) (a6 m c) (a7 m c)

theorem hz : (![0, 0] : Fin 2 → Nat) = fun _ => 0 := funext fun a => by fin_cases a <;> rfl

/-- The index maps, decided over the 128 grid points: the data, the event times and the result move one block of
    rows per point; the vectors and the weights stay at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = t.val ∧ win0_9.index t (1 : Fin 2) = 0 :=
  (by decide +kernel : ∀ t : Fin grid0.N, _)

theorem lt_points (t : Fin cfg0.N) : t.val < 128 := by
  have h := t.isLt
  have e : cfg0.N = 128 := N_0
  omega

/-- The row of the flattened batch that row `p` of point `t`'s tile is. -/
abbrev rowAt (t : Fin cfg0.N) (p : Fin 2048) : Fin 262144 :=
  ⟨t.val * 2048 + p.val, by have := lt_points t; have := p.isLt; omega⟩

/-! ## Each window's block at a point, read at an entry -/

theorem blk_data (c : Dev nD) (t : Fin cfg0.N) (p : Fin 2048) (k : Fin 386) :
    iblk m c 0 t (ix2 p k) = rowOf (a0 m c) (rowAt t p) k := by
  obtain ⟨e0, e1, -⟩ := idx_facts t
  have he : ((cfg0.win 0).blk t).view.emb (ix2 p k) = (ix2 (rowAt t p) k : S262144x386.Idx) := by
    funext a; apply Fin.ext
    match a with
    | ⟨0, _⟩ => show win0_0.index t (0 : Fin 2) * 2048 + 1 * p.val = t.val * 2048 + p.val; omega
    | ⟨1, _⟩ => show win0_0.index t (1 : Fin 2) * 386 + 1 * k.val = k.val; omega
  show V m c main_v0 (((cfg0.win 0).blk t).view.emb (ix2 p k)) = _
  rw [he]
  exact rows_entry m c _ k

theorem blk_stamp (c : Dev nD) (t : Fin cfg0.N) (p : Fin 2048) :
    iblk m c 1 t (ix2 p (0 : Fin 1)) = stampOf (a1 m c) (rowAt t p) := by
  obtain ⟨-, -, e0, e1, -⟩ := idx_facts t
  have he : ((cfg0.win 1).blk t).view.emb (ix2 p (0 : Fin 1)) = (ix2 (rowAt t p) (0 : Fin 1) : S262144x1.Idx) := by
    funext a; apply Fin.ext
    match a with
    | ⟨0, _⟩ => show win0_1.index t (0 : Fin 2) * 2048 + 1 * p.val = t.val * 2048 + p.val; omega
    | ⟨1, _⟩ => show win0_1.index t (1 : Fin 2) * 1 + 1 * 0 = 0; omega
  show V m c main_v1 (((cfg0.win 1).blk t).view.emb (ix2 p (0 : Fin 1))) = _
  rw [he]
  exact stamps_entry m c _

theorem blk_freq (c : Dev nD) (t : Fin cfg0.N) (u : Fin 128) :
    iblk m c 2 t (ix2 (0 : Fin 1) u) = vecOf (a2 m c) u := by
  obtain ⟨-, -, -, -, e0, e1, -⟩ := idx_facts t
  have he : ((cfg0.win 2).blk t).view.emb (ix2 (0 : Fin 1) u) = (ix2 (0 : Fin 1) u : S1x128.Idx) := by
    funext a; apply Fin.ext
    match a with
    | ⟨0, _⟩ => show win0_2.index t (0 : Fin 2) * 1 + 1 * 0 = 0; omega
    | ⟨1, _⟩ => show win0_2.index t (1 : Fin 2) * 128 + 1 * u.val = u.val; omega
  show V m c main_v2 (((cfg0.win 2).blk t).view.emb (ix2 (0 : Fin 1) u)) = _
  rw [he]
  exact freq_entry m c u

theorem blk_phase (c : Dev nD) (t : Fin cfg0.N) (u : Fin 128) :
    iblk m c 3 t (ix2 (0 : Fin 1) u) = vecOf (a3 m c) u := by
  obtain ⟨-, -, -, -, -, -, e0, e1, -⟩ := idx_facts t
  have he : ((cfg0.win 3).blk t).view.emb (ix2 (0 : Fin 1) u) = (ix2 (0 : Fin 1) u : S1x128.Idx) := by
    funext a; apply Fin.ext
    match a with
    | ⟨0, _⟩ => show win0_3.index t (0 : Fin 2) * 1 + 1 * 0 = 0; omega
    | ⟨1, _⟩ => show win0_3.index t (1 : Fin 2) * 128 + 1 * u.val = u.val; omega
  show V m c main_v3 (((cfg0.win 3).blk t).view.emb (ix2 (0 : Fin 1) u)) = _
  rw [he]
  exact phase_entry m c u

theorem blk_wpadIh (c : Dev nD) (t : Fin cfg0.N) (k : Fin 386) (g : Fin 384) :
    iblk m c 4 t (ix2 k g)
      = PadSum.pad 2 (fun j : Fin 256 => matOf (a4 m c) g ⟨j.val, by have := j.isLt; omega⟩) k := by
  obtain ⟨-, -, -, -, -, -, -, -, e0, e1, -⟩ := idx_facts t
  have he : ((cfg0.win 4).blk t).view.emb (ix2 k g) = (ix2 k g : S386x384.Idx) := by
    funext a; apply Fin.ext
    match a with
    | ⟨0, _⟩ => show win0_4.index t (0 : Fin 2) * 386 + 1 * k.val = k.val; omega
    | ⟨1, _⟩ => show win0_4.index t (1 : Fin 2) * 384 + 1 * g.val = g.val; omega
  show V m c main_v11 (((cfg0.win 4).blk t).view.emb (ix2 k g)) = _
  rw [he]
  exact wpadIh_entry m c k g

theorem blk_wtime (c : Dev nD) (t : Fin cfg0.N) (u : Fin 128) (g : Fin 384) :
    iblk m c 5 t (ix2 u g) = matOf (a4 m c) g ⟨256 + u.val, by have := u.isLt; omega⟩ := by
  obtain ⟨-, -, -, -, -, -, -, -, -, -, e0, e1, -⟩ := idx_facts t
  have he : ((cfg0.win 5).blk t).view.emb (ix2 u g) = (ix2 u g : S128x384.Idx) := by
    funext a; apply Fin.ext
    match a with
    | ⟨0, _⟩ => show win0_5.index t (0 : Fin 2) * 128 + 1 * u.val = u.val; omega
    | ⟨1, _⟩ => show win0_5.index t (1 : Fin 2) * 384 + 1 * g.val = g.val; omega
  show V m c main_v14 (((cfg0.win 5).blk t).view.emb (ix2 u g)) = _
  rw [he]
  exact wtime_entry m c u g

theorem blk_bih (c : Dev nD) (t : Fin cfg0.N) (g : Fin 384) :
    iblk m c 6 t (ix2 (0 : Fin 1) g) = vecOf (a5 m c) g := by
  obtain ⟨-, -, -, -, -, -, -, -, -, -, -, -, e0, e1, -⟩ := idx_facts t
  have he : ((cfg0.win 6).blk t).view.emb (ix2 (0 : Fin 1) g) = (ix2 (0 : Fin 1) g : S1x384.Idx) := by
    funext a; apply Fin.ext
    match a with
    | ⟨0, _⟩ => show win0_6.index t (0 : Fin 2) * 1 + 1 * 0 = 0; omega
    | ⟨1, _⟩ => show win0_6.index t (1 : Fin 2) * 384 + 1 * g.val = g.val; omega
  show V m c main_v4 (((cfg0.win 6).blk t).view.emb (ix2 (0 : Fin 1) g)) = _
  rw [he]
  exact bih_entry m c g

theorem blk_wpadHh (c : Dev nD) (t : Fin cfg0.N) (k : Fin 386) (g : Fin 384) :
    iblk m c 7 t (ix2 k g) = PadSum.pad 258 (fun j : Fin 128 => matOf (a6 m c) g j) k := by
  obtain ⟨-, -, -, -, -, -, -, -, -, -, -, -, -, -, e0, e1, -⟩ := idx_facts t
  have he : ((cfg0.win 7).blk t).view.emb (ix2 k g) = (ix2 k g : S386x384.Idx) := by
    funext a; apply Fin.ext
    match a with
    | ⟨0, _⟩ => show win0_7.index t (0 : Fin 2) * 386 + 1 * k.val = k.val; omega
    | ⟨1, _⟩ => show win0_7.index t (1 : Fin 2) * 384 + 1 * g.val = g.val; omega
  show V m c main_v19 (((cfg0.win 7).blk t).view.emb (ix2 k g)) = _
  rw [he]
  exact wpadHh_entry m c k g

theorem blk_bhh (c : Dev nD) (t : Fin cfg0.N) (g : Fin 384) :
    iblk m c 8 t (ix2 (0 : Fin 1) g) = vecOf (a7 m c) g := by
  obtain ⟨-, -, -, -, -, -, -, -, -, -, -, -, -, -, -, -, e0, e1, -⟩ := idx_facts t
  have he : ((cfg0.win 8).blk t).view.emb (ix2 (0 : Fin 1) g) = (ix2 (0 : Fin 1) g : S1x384.Idx) := by
    funext a; apply Fin.ext
    match a with
    | ⟨0, _⟩ => show win0_8.index t (0 : Fin 2) * 1 + 1 * 0 = 0; omega
    | ⟨1, _⟩ => show win0_8.index t (1 : Fin 2) * 384 + 1 * g.val = g.val; omega
  show V m c main_v5 (((cfg0.win 8).blk t).view.emb (ix2 (0 : Fin 1) g)) = _
  rw [he]
  exact bhh_entry m c g

/-! ## One point's tile -/

/-- What the body leaves in the output tile, over VARIABLES for the loaded blocks: when the blocks are the rows,
    times, vectors and (padded) weights of the arguments, entry `(p, h)` is the cell of row `n` at `h`. -/
theorem tile_entry (x0 : Vec Ideal S2048x386 .f32) (x1 : Vec Ideal S2048x1 .f32) (x2 x3 : Vec Ideal S1x128 .f32)
    (x4 : Vec Ideal S386x384 .bf16) (x5 : Vec Ideal S128x384 .bf16) (x6 : Vec Ideal S1x384 .f32)
    (x7 : Vec Ideal S386x384 .bf16) (x8 : Vec Ideal S1x384 .f32)
    (A0 : S4x65536x386.Idx → EReal) (A1 : S4x65536.Idx → EReal) (A2 A3 : S128.Idx → EReal)
    (A4 : S384x384.Idx → EReal) (A5 : S384.Idx → EReal) (A6 : S384x128.Idx → EReal) (A7 : S384.Idx → EReal)
    (n : Fin 262144) (p : Fin 2048) (h : Fin 128)
    (h0 : ∀ k, x0 (ix2 p k) = rowOf A0 n k) (h1 : x1 (ix2 p (0 : Fin 1)) = stampOf A1 n)
    (h2 : ∀ u, x2 (ix2 (0 : Fin 1) u) = vecOf A2 u) (h3 : ∀ u, x3 (ix2 (0 : Fin 1) u) = vecOf A3 u)
    (h4 : ∀ k g, x4 (ix2 k g)
      = PadSum.pad 2 (fun j : Fin 256 => matOf A4 g ⟨j.val, by have := j.isLt; omega⟩) k)
    (h5 : ∀ u g, x5 (ix2 u g) = matOf A4 g ⟨256 + u.val, by have := u.isLt; omega⟩)
    (h6 : ∀ g, x6 (ix2 (0 : Fin 1) g) = vecOf A5 g)
    (h7 : ∀ k g, x7 (ix2 k g) = PadSum.pad 258 (fun j : Fin 128 => matOf A6 g j) k)
    (h8 : ∀ g, x8 (ix2 (0 : Fin 1) g) = vecOf A7 g) :
    out0_9 x0 x1 x2 x3 x4 x5 x6 x7 x8 (ix2 p h) = G A0 A1 A2 A3 A4 A5 A6 A7 (ix2 n h) := by
  unfold out0_9
  simp only [View.ld_unit_zero (S := S2048x386) hz, View.ld_unit_zero (S := S2048x1) hz,
    View.ld_unit_zero (S := S1x128) hz, View.ld_unit_zero (S := S386x384) hz, View.ld_unit_zero (S := S128x384) hz,
    View.ld_unit_zero (S := S1x384) hz]
  rw [canon9_eq, BodyCell.E9_entry]
  show _ = cell (rowOf A0 n) (stampOf A1 n) (vecOf A2) (vecOf A3) (matOf A4) (vecOf A5) (matOf A6) (vecOf A7) h
  unfold cell
  have e0 : BodyCell.tileRow x0 p = rowOf A0 n := funext h0
  have e2 : (fun u => x2 (ix2 (0 : Fin 1) u)) = vecOf A2 := funext h2
  have e3 : (fun u => x3 (ix2 (0 : Fin 1) u)) = vecOf A3 := funext h3
  have e6 : (fun g => x6 (ix2 (0 : Fin 1) g)) = vecOf A5 := funext h6
  have e8 : (fun g => x8 (ix2 (0 : Fin 1) g)) = vecOf A7 := funext h8
  rw [e0, h1, e2, e3, e6, e8]
  congr 1
  · exact funext fun g => giPad_eq (rowOf A0 n) (stampOf A1 n) (vecOf A2) (vecOf A3) (matOf A4) (vecOf A5)
      (fun k g => x4 (ix2 k g)) (fun u g => x5 (ix2 u g)) h4 h5 g
  · exact funext fun g => ghPad_eq (rowOf A0 n) (matOf A6) (vecOf A7) (fun k g => x7 (ix2 k g)) h7 g

/-! ## What each point writes back, the cover, and the run -/

/-- What point `t` writes back is block `t` of `G` of the arguments. -/
theorem flushed_eq (c : Dev nD) (t : Fin cfg0.N) :
    (dats m 0 c).flushed 9 t = ((cfg0.win 9).blk t).view.read (Elt Ideal) (GA m c) := by
  rw [flushed9]
  obtain ⟨-, -, -, -, -, -, -, -, -, -, -, -, -, -, -, -, -, -, e0, e1⟩ := idx_facts t
  funext j
  have hj : j = ix2 (j 0) (j 1) := eq_ix2 j
  have hemb : ((cfg0.win 9).blk t).view.emb j = (ix2 (rowAt t (j 0)) (j 1) : S262144x128.Idx) := by
    funext a; apply Fin.ext
    match a with
    | ⟨0, _⟩ => show win0_9.index t (0 : Fin 2) * 2048 + 1 * (j 0).val = t.val * 2048 + (j 0).val; omega
    | ⟨1, _⟩ => show win0_9.index t (1 : Fin 2) * 128 + 1 * (j 1).val = (j 1).val; omega
  show out0_9 (iblk m c 0 t) (iblk m c 1 t) (iblk m c 2 t) (iblk m c 3 t) (iblk m c 4 t) (iblk m c 5 t)
      (iblk m c 6 t) (iblk m c 7 t) (iblk m c 8 t) j = GA m c (((cfg0.win 9).blk t).view.emb j)
  rw [hemb, hj]
  exact tile_entry (iblk m c 0 t) (iblk m c 1 t) (iblk m c 2 t) (iblk m c 3 t) (iblk m c 4 t) (iblk m c 5 t)
    (iblk m c 6 t) (iblk m c 7 t) (iblk m c 8 t) (a0 m c) (a1 m c) (a2 m c) (a3 m c) (a4 m c) (a5 m c) (a6 m c)
    (a7 m c) (rowAt t (j 0)) (j 0) (j 1)
    (fun k => blk_data m c t (j 0) k) (blk_stamp m c t (j 0)) (fun u => blk_freq m c t u)
    (fun u => blk_phase m c t u) (fun k g => blk_wpadIh m c t k g) (fun u g => blk_wtime m c t u g)
    (fun g => blk_bih m c t g) (fun k g => blk_wpadHh m c t k g) (fun g => blk_bhh m c t g)

/-- An index of the result array is in point `t`'s block iff each coordinate is in the block's range. -/
theorem mem_blk (t : Fin cfg0.N) (i : S262144x128.Idx) :
    i ∈ ((cfg0.win 9).blk t).view.set ↔ ∀ a : Fin 2, win0_9.index t a * S2048x128.size a ≤ (i a).val
      ∧ (i a).val < win0_9.index t a * S2048x128.size a + S2048x128.size a := by
  show i ∈ ((View.whole main_v20).slice (win0_9.rect t)).set ↔ _
  rw [View.set_slice_whole, Rect.mem_set_unit]
  exact Iff.rfl

/-- Every row of the result lies in the block of the point `row / 2048`. -/
theorem cover (i : S262144x128.Idx) :
    ∃ t : Fin cfg0.N, (cfg0.win 9).flush t = true ∧ i ∈ ((cfg0.win 9).blk t).view.set := by
  have hi0 : (i 0).val < 262144 := (i 0).isLt
  have hi1 : (i 1).val < 128 := (i 1).isLt
  let t : Fin cfg0.N := ⟨(i 0).val / 2048, by rw [show cfg0.N = 128 from N_0]; omega⟩
  obtain ⟨-, -, -, -, -, -, -, -, -, -, -, -, -, -, -, -, -, -, e0, e1⟩ := idx_facts t
  have ht : t.val = (i 0).val / 2048 := rfl
  refine ⟨t, flush0_9 t, ?_⟩
  rw [mem_blk]
  intro a
  match a with
  | ⟨0, _⟩ =>
    show win0_9.index t (0 : Fin 2) * 2048 ≤ (i 0).val ∧ (i 0).val < win0_9.index t (0 : Fin 2) * 2048 + 2048
    omega
  | ⟨1, _⟩ =>
    show win0_9.index t (1 : Fin 2) * 128 ≤ (i 1).val ∧ (i 1).val < win0_9.index t (1 : Fin 2) * 128 + 128
    omega

/-- The result array after the run is `G` of the arguments. -/
theorem final (c : Dev nD) : (dats m 0 c).arrAt 9 cfg0.N = GA m c :=
  (dats m 0 c).arrAt_eq_of_cover 9 (GA m c) (fun t _ => flushed_eq m c t) cover

/-- The kernel's run: it terminates, the result array at `G` of the arguments, the arguments unchanged. -/
theorem run : θ_run defs (onTc (τ := τ) (main (F := Ideal))) ⟨m, fun _ => 0, ρ⟩ fun r => ∀ c : Dev nD,
      r.2.mem ((c : Thread nD τ).loc main_v20) = GA m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩) (run_blocks m ρ)

end Cert.KernelIdeal.KernelArray

end
-- ==== Proof.LibHostSlab.lean ====
/-
  Two host forms read at an entry.

  The reference slices one `[1, a, b]` slab out of a weight stack `[M, a, b]`, drops the unit axis and transposes the
  matrix: at `(j, i)` the result is the stack at `(k, i, j)`. And it multiplies matrices by the host's
  `dot_general` contracting the left operand's columns with the right operand's rows: on the extended reals, at
  `(p, q)`, the sum over the contracted axis, whatever record the program prints for those dimension numbers.
-/
import proofs.«120630_j10642928959816_2_alg».proof.Proof.LibDotRecord
import Idealize.ShloMosaic.Lib.ValueLayout

namespace Bilinear.Host

open Idealize.ShloMosaic Idealize.ShloMosaic.ValueIdx

/-- The host's plain matrix product at `(p, q)`: the sum over the contracted axis. -/
theorem dot_apply {M K N : ℕ} {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (l : FVec Ideal ⟨2, ![M, K]⟩ φ₁) (r : FVec Ideal ⟨2, ![K, N]⟩ φ₂) (prec : Option ContractPrecision)
    (p : Fin M) (q : Fin N) :
    Host.dotGeneral d prec l r (ix2 p q) = ∑ k : Fin K, l (ix2 p k) * r (ix2 k q) := by
  have e := DotRecord.eq_plain d h1 h2 h3 h4 h5 h6
  subst e
  exact Gcn.Lib.plain_dotGeneral_apply l r prec .single p q

/-- Slab `k` of a stack, sliced out, read as a matrix and transposed. -/
theorem slabT_apply {α : Type} {M a b : ℕ} (A : (⟨3, ![M, a, b]⟩ : Shape).Idx → α) (o : ℕ) (k : Fin M) (hk : k.val = o)
    (hs : (⟨3, ![M, a, b]⟩ : Shape).Slices ![o, 0, 0] ⟨3, ![1, a, b]⟩)
    (hc : (⟨3, ![1, a, b]⟩ : Shape).ShapeCasts ⟨2, ![a, b]⟩)
    (ht : (⟨2, ![a, b]⟩ : Shape).Transposes [1, 0] ⟨2, ![b, a]⟩) (j : Fin b) (i : Fin a) :
    transpose ⟨2, ![b, a]⟩ [1, 0] (shapeCast ⟨2, ![a, b]⟩ (extractStridedSlice ⟨3, ![1, a, b]⟩ ![o, 0, 0] A hs) hc) ht (ix2 j i)
      = A (ix3 k i j) :=
  (transpose_ix2_apply _ ht j i).trans <| (shapeCast_1ab_ab_apply _ hc i j).trans <|
    extractStridedSlice_apply ![o, 0, 0] A hs (ix3 (0 : Fin 1) i j) (ix3 k i j) (fun ax => by
      match ax with
      | ⟨0, _⟩ => show k.val = o + 0; omega
      | ⟨1, _⟩ => exact (Nat.zero_add _).symm
      | ⟨2, _⟩ => exact (Nat.zero_add _).symm)

end Bilinear.Host
-- ==== Proof.LibJumpConcat.lean ====
/-
  A dense map applied to two feature blocks joined end to end, read at an entry.

  Let a row of `c₁` aggregated features `A` and a row of `c₂` own features `H` be joined along the feature axis into
  a row of `w = c₁ + c₂` features, and put through a dense map with weight `W : [w, n]` and bias `β`. Entry `q` of the
  result is `∑ k < w, (A ‖ H) k * W (k, q) + β`. Splitting the sum at `c₁`, it is
      `(∑ k < c₁, A k * W (k, q) + ∑ k < c₂, H k * W (c₁ + k, q)) + β`,
  the sum of two products — of `A` with the first `c₁` rows of `W` and of `H` with the remaining `c₂` rows. The split
  only regroups a finite sum, so it holds on the extended reals with no finiteness assumption. `entry` is that second
  form; the lemmas below read a host program's spelling (one product with the joined array) and a tile body's spelling
  (two products with the two halves of the weight) at an entry as `entry`. Every extent is generic.
-/
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost
import proofs.«120630_j10642928959816_2_alg».proof.Proof.LibDotRecord
import proofs.«120630_j10642928959816_2_alg».proof.Proof.LibHostSlab

namespace JumpConcat

open Idealize.ShloMosaic Idealize.ShloMosaic.ValueIdx
open scoped BigOperators

/-- Entry `q` of the dense map of the joined row `A ‖ H`: the two partial products, then the bias. -/
noncomputable def entry {c₁ c₂ w n : ℕ} (hw : w = c₁ + c₂) (A : Fin c₁ → EReal) (H : Fin c₂ → EReal)
    (W : (⟨2, ![w, n]⟩ : Shape).Idx → EReal) (β : EReal) (q : Fin n) : EReal :=
  (∑ k : Fin c₁, A k * W (ix2 (⟨k.val, by have := k.isLt; omega⟩ : Fin w) q)
    + ∑ k : Fin c₂, H k * W (ix2 (⟨c₁ + k.val, by have := k.isLt; omega⟩ : Fin w) q)) + β

/-- Two matrices joined along the column axis, read at a column of the first block: the first matrix there. -/
theorem cat2_inl {α : Type} {a c₁ c₂ w : ℕ} (x₁ : (⟨2, ![a, c₁]⟩ : Shape).Idx → α)
    (x₂ : (⟨2, ![a, c₂]⟩ : Shape).Idx → α)
    (h : Shape.Concatenates [⟨2, ![a, c₁]⟩, ⟨2, ![a, c₂]⟩] ⟨2, ![a, w]⟩ (1 : Fin 2)) (p : Fin a) (k : Fin c₁)
    (hk : k.val < w) :
    concatenate ⟨2, ![a, w]⟩ (1 : Fin 2) [⟨⟨2, ![a, c₁]⟩, x₁⟩, ⟨⟨2, ![a, c₂]⟩, x₂⟩] h (ix2 p (⟨k.val, hk⟩ : Fin w))
      = x₁ (ix2 p k) :=
  concatenate_pair_apply_left (t := ⟨2, ![a, w]⟩) (s₁ := ⟨2, ![a, c₁]⟩) (s₂ := ⟨2, ![a, c₂]⟩) (1 : Fin 2) x₁ x₂ h _ rfl
    _ (fun b => by
      match b with
      | ⟨0, _⟩ => rfl
      | ⟨1, _⟩ => rfl)

/-- Two matrices joined along the column axis, read at a column of the second block: the second matrix at that column,
    the first block's width less. -/
theorem cat2_inr {α : Type} {a c₁ c₂ w : ℕ} (x₁ : (⟨2, ![a, c₁]⟩ : Shape).Idx → α)
    (x₂ : (⟨2, ![a, c₂]⟩ : Shape).Idx → α)
    (h : Shape.Concatenates [⟨2, ![a, c₁]⟩, ⟨2, ![a, c₂]⟩] ⟨2, ![a, w]⟩ (1 : Fin 2)) (p : Fin a) (k : Fin c₂)
    (hk : c₁ + k.val < w) :
    concatenate ⟨2, ![a, w]⟩ (1 : Fin 2) [⟨⟨2, ![a, c₁]⟩, x₁⟩, ⟨⟨2, ![a, c₂]⟩, x₂⟩] h (ix2 p (⟨c₁ + k.val, hk⟩ : Fin w))
      = x₂ (ix2 p k) :=
  concatenate_pair_apply_right (t := ⟨2, ![a, w]⟩) (s₁ := ⟨2, ![a, c₁]⟩) (s₂ := ⟨2, ![a, c₂]⟩) (1 : Fin 2) x₁ x₂ h _ rfl
    rfl _
    (fun b hb => by
      match b with
      | ⟨0, _⟩ => rfl
      | ⟨1, _⟩ => exact absurd rfl hb)
    (Nat.add_comm _ _)

/-- The joined matrix at a column below the first block's width is the first matrix at that column. -/
theorem cat2_left {α : Type} {a c₁ c₂ w : ℕ} (x₁ : (⟨2, ![a, c₁]⟩ : Shape).Idx → α)
    (x₂ : (⟨2, ![a, c₂]⟩ : Shape).Idx → α)
    (h : Shape.Concatenates [⟨2, ![a, c₁]⟩, ⟨2, ![a, c₂]⟩] ⟨2, ![a, w]⟩ (1 : Fin 2)) (p : Fin a) (k : Fin w)
    (hk : k.val < c₁) :
    concatenate ⟨2, ![a, w]⟩ (1 : Fin 2) [⟨⟨2, ![a, c₁]⟩, x₁⟩, ⟨⟨2, ![a, c₂]⟩, x₂⟩] h (ix2 p k)
      = x₁ (ix2 p (⟨k.val, hk⟩ : Fin c₁)) :=
  cat2_inl x₁ x₂ h p ⟨k.val, hk⟩ k.isLt

/-- The joined matrix at a column from the first block's width on is the second matrix at that column, the width less. -/
theorem cat2_right {α : Type} {a c₁ c₂ w : ℕ} (hw : w = c₁ + c₂) (x₁ : (⟨2, ![a, c₁]⟩ : Shape).Idx → α)
    (x₂ : (⟨2, ![a, c₂]⟩ : Shape).Idx → α)
    (h : Shape.Concatenates [⟨2, ![a, c₁]⟩, ⟨2, ![a, c₂]⟩] ⟨2, ![a, w]⟩ (1 : Fin 2)) (p : Fin a) (k : Fin w)
    (hk : c₁ ≤ k.val) :
    concatenate ⟨2, ![a, w]⟩ (1 : Fin 2) [⟨⟨2, ![a, c₁]⟩, x₁⟩, ⟨⟨2, ![a, c₂]⟩, x₂⟩] h (ix2 p k)
      = x₂ (ix2 p (⟨k.val - c₁, by have := k.isLt; omega⟩ : Fin c₂)) := by
  have e : k = (⟨c₁ + (k.val - c₁), by have := k.isLt; omega⟩ : Fin w) := Fin.ext (by show k.val = c₁ + (k.val - c₁); omega)
  conv_lhs => rw [e]
  exact cat2_inr x₁ x₂ h p ⟨k.val - c₁, by have := k.isLt; omega⟩ _

/-- A finite sum over `w = c₁ + c₂` terms is the sum of its first `c₁` terms plus the sum of its last `c₂` terms
    (a regrouping, valid in any commutative additive monoid). -/
theorem sum_split {M : Type*} [AddCommMonoid M] {c₁ c₂ w : ℕ} (hw : w = c₁ + c₂) (f : Fin w → M) :
    ∑ k, f k = ∑ k : Fin c₁, f ⟨k.val, by have := k.isLt; omega⟩
      + ∑ k : Fin c₂, f ⟨c₁ + k.val, by have := k.isLt; omega⟩ := by
  subst hw
  rw [Fin.sum_univ_add]
  rfl

/-- A vector of `n` entries laid out as one row and that row repeated down `a` rows reads, at `(p, q)`, entry `q`. -/
theorem bias_apply {α : Type} {a n : ℕ} (hb1 : (⟨1, ![n]⟩ : Shape).BroadcastsInDim ⟨2, ![1, n]⟩ ![1])
    (hb2 : (⟨2, ![1, n]⟩ : Shape).BroadcastsInDim ⟨2, ![a, n]⟩ ![0, 1]) (b : (⟨1, ![n]⟩ : Shape).Idx → α)
    (p : Fin a) (q : Fin n) :
    broadcastInDim ⟨2, ![a, n]⟩ ![0, 1] hb2 (broadcastInDim ⟨2, ![1, n]⟩ ![1] hb1 b) (ix2 p q) = b (ix1 q) := by
  have e2 : broadcastInDim ⟨2, ![a, n]⟩ ![0, 1] hb2 (broadcastInDim ⟨2, ![1, n]⟩ ![1] hb1 b) (ix2 p q)
      = broadcastInDim ⟨2, ![1, n]⟩ ![1] hb1 b (ix2 (0 : Fin 1) q) := by
    refine broadcastInDim_apply ![0, 1] hb2 _ (ix2 p q) (ix2 (0 : Fin 1) q) fun ax => ?_
    match ax with
    | ⟨0, _⟩ =>
      show (0 : ℕ) = if (1 : ℕ) = 1 then 0 else p.val
      rw [if_pos rfl]
    | ⟨1, _⟩ =>
      show q.val = if n = 1 then 0 else q.val
      split
      · have := q.isLt; omega
      · rfl
  have e1 : broadcastInDim ⟨2, ![1, n]⟩ ![1] hb1 b (ix2 (0 : Fin 1) q) = b (ix1 q) := by
    refine broadcastInDim_apply ![1] hb1 b (ix2 (0 : Fin 1) q) (ix1 q) fun ax => ?_
    match ax with
    | ⟨0, _⟩ =>
      show q.val = if n = 1 then 0 else q.val
      split
      · have := q.isLt; omega
      · rfl
  exact e2.trans e1

/-- The host's dense map of the joined array, at entry `(p, q)`: one product over all `w` joined features plus the
    bias is the two partial products over the two blocks plus the bias. -/
theorem host_dense_apply {a c₁ c₂ w n : ℕ} (hw : w = c₁ + c₂)
    (d : DotDims ⟨2, ![a, w]⟩ ⟨2, ![w, n]⟩ ⟨2, ![a, n]⟩)
    (h1 : d.lhsContracting = [1]) (h2 : d.rhsContracting = [0]) (h3 : d.lhsNonContracting = [0])
    (h4 : d.rhsNonContracting = [1]) (h5 : d.lhsBatch = []) (h6 : d.rhsBatch = [])
    (hcat : Shape.Concatenates [⟨2, ![a, c₁]⟩, ⟨2, ![a, c₂]⟩] ⟨2, ![a, w]⟩ (1 : Fin 2))
    (hb1 : (⟨1, ![n]⟩ : Shape).BroadcastsInDim ⟨2, ![1, n]⟩ ![1])
    (hb2 : (⟨2, ![1, n]⟩ : Shape).BroadcastsInDim ⟨2, ![a, n]⟩ ![0, 1])
    (A : FVec Ideal ⟨2, ![a, c₁]⟩ .f32) (H : FVec Ideal ⟨2, ![a, c₂]⟩ .f32) (W : FVec Ideal ⟨2, ![w, n]⟩ .f32)
    (b : FVec Ideal ⟨1, ![n]⟩ .f32) (p : Fin a) (q : Fin n) :
    addf (Host.dotGeneral d none
          (concatenate ⟨2, ![a, w]⟩ (1 : Fin 2) [⟨⟨2, ![a, c₁]⟩, A⟩, ⟨⟨2, ![a, c₂]⟩, H⟩] hcat) W)
        (broadcastInDim ⟨2, ![a, n]⟩ ![0, 1] hb2 (broadcastInDim ⟨2, ![1, n]⟩ ![1] hb1 b)) (ix2 p q)
      = entry hw (fun k => A (ix2 p k)) (fun k => H (ix2 p k)) W (b (ix1 q)) q := by
  rw [addf_apply, Bilinear.Host.dot_apply d h1 h2 h3 h4 h5 h6, bias_apply hb1 hb2 b p q, sum_split hw]
  unfold entry
  congr 2
  · refine Finset.sum_congr rfl fun k _ => ?_
    rw [cat2_inl A H hcat p k]
  · refine Finset.sum_congr rfl fun k _ => ?_
    rw [cat2_inr A H hcat p k]

/-- The same dense map followed by the rectifier (the maximum with a broadcast zero), at entry `(p, q)`. -/
theorem host_relu_dense_apply {a c₁ c₂ w n : ℕ} (hw : w = c₁ + c₂)
    (d : DotDims ⟨2, ![a, w]⟩ ⟨2, ![w, n]⟩ ⟨2, ![a, n]⟩)
    (h1 : d.lhsContracting = [1]) (h2 : d.rhsContracting = [0]) (h3 : d.lhsNonContracting = [0])
    (h4 : d.rhsNonContracting = [1]) (h5 : d.lhsBatch = []) (h6 : d.rhsBatch = [])
    (hcat : Shape.Concatenates [⟨2, ![a, c₁]⟩, ⟨2, ![a, c₂]⟩] ⟨2, ![a, w]⟩ (1 : Fin 2))
    (hb1 : (⟨1, ![n]⟩ : Shape).BroadcastsInDim ⟨2, ![1, n]⟩ ![1])
    (hb2 : (⟨2, ![1, n]⟩ : Shape).BroadcastsInDim ⟨2, ![a, n]⟩ ![0, 1])
    (hz : (⟨0, ![]⟩ : Shape).BroadcastsInDim ⟨2, ![a, n]⟩ ![])
    (A : FVec Ideal ⟨2, ![a, c₁]⟩ .f32) (H : FVec Ideal ⟨2, ![a, c₂]⟩ .f32) (W : FVec Ideal ⟨2, ![w, n]⟩ .f32)
    (b : FVec Ideal ⟨1, ![n]⟩ .f32) (p : Fin a) (q : Fin n) :
    maximumf
        (addf (Host.dotGeneral d none
            (concatenate ⟨2, ![a, w]⟩ (1 : Fin 2) [⟨⟨2, ![a, c₁]⟩, A⟩, ⟨⟨2, ![a, c₂]⟩, H⟩] hcat) W)
          (broadcastInDim ⟨2, ![a, n]⟩ ![0, 1] hb2 (broadcastInDim ⟨2, ![1, n]⟩ ![1] hb1 b)))
        (broadcastInDim ⟨2, ![a, n]⟩ ![] hz (constant ⟨0, ![]⟩ .f32 0x00000000#32)) (ix2 p q)
      = max (entry hw (fun k => A (ix2 p k)) (fun k => H (ix2 p k)) W (b (ix1 q)) q) 0 := by
  rw [maximumf_apply, host_dense_apply hw d h1 h2 h3 h4 h5 h6 hcat hb1 hb2 A H W b p q,
    broadcastInDim_scalar_apply hz, constant_apply, Ideal.ofBits_zero_f32]

end JumpConcat
-- ==== Proof.RefCell.lean ====
/-
  The reference program, entry by entry: its result at `(n, h)` is the GRU cell of row `n` at `h`.

  The reference flattens the data to 262144 rows, cuts each row into its last-update time (column 0), its message
  (columns 2 … 257) and its memory (columns 258 … 385), forms the time features, joins the message and the time
  features into one 384-wide input, and applies the GRU cell with its weights transposed. Read at an entry:
    * the joined input against `Wihᵀ` plus the bias is the split sum `GruCell.gi` (a sum over 384 joined columns
      is the sum over the 256 message columns plus the sum over the 128 time columns: a regrouping of a finite sum);
    * the memory against `Whhᵀ` plus the bias is `GruCell.gh`;
    * the gates are spelt `1 / (1 + exp (-x))`, which is the logistic function on the extended reals by definition.
-/
import proofs.«120630_j10642928959816_2_alg».proof.Proof.Gen.ReferenceIdeal.Read
import proofs.«120630_j10642928959816_2_alg».proof.Proof.GruCell
import proofs.«120630_j10642928959816_2_alg».proof.Proof.LibJumpConcat
import Idealize.ShloMosaic.Lib.IdealHost

noncomputable section

namespace Cert.ReferenceIdeal.RefCell

open Cert.ReferenceIdeal Cert.ReferenceIdeal.Gen Cert.ReferenceIdeal.Read Idealize.ShloMosaic
open Idealize.ShloMosaic.ValueIdx GruCell

variable (x0 : (⟨S4x65536x386, .f32⟩ : BufTy).Contents (Elt Ideal)) (x1 : (⟨S4x65536, .f32⟩ : BufTy).Contents (Elt Ideal))
  (x2 x3 : (⟨S128, .f32⟩ : BufTy).Contents (Elt Ideal)) (x4 : (⟨S384x384, .f32⟩ : BufTy).Contents (Elt Ideal))
  (x5 : (⟨S384, .f32⟩ : BufTy).Contents (Elt Ideal)) (x6 : (⟨S384x128, .f32⟩ : BufTy).Contents (Elt Ideal))
  (x7 : (⟨S384, .f32⟩ : BufTy).Contents (Elt Ideal))

/-- The flattened data at `(n, k)` is entry `k` of row `n`. -/
theorem flat_entry (n : Fin 262144) (k : Fin 386) : val_main_v0 (F := Ideal) x0 (ix2 n k) = rowOf x0 n k := by
  rw [val_main_v0_apply]
  unfold rowOf
  refine congrArg x0 (funext fun a => Fin.ext ?_)
  have hn := n.isLt
  have hk := k.isLt
  match a with
  | ⟨0, _⟩ => show (n.val * 386 + k.val) / 25296896 = n.val / 65536; omega
  | ⟨1, _⟩ => show (n.val * 386 + k.val) / 386 % 65536 = n.val % 65536; omega
  | ⟨2, _⟩ => show (n.val * 386 + k.val) % 386 = k.val; omega

/-- The flattened event times at `n`. -/
theorem stamp_entry (n : Fin 262144) : val_main_v1 (F := Ideal) x1 (ix1 n) = stampOf x1 n := by
  rw [val_main_v1_apply]
  unfold stampOf
  refine congrArg x1 (funext fun a => Fin.ext ?_)
  match a with
  | ⟨0, _⟩ => rfl
  | ⟨1, _⟩ => rfl

/-- The message block at `(n, k)` is entry `2 + k` of row `n`. -/
theorem msg_entry (n : Fin 262144) (k : Fin 256) :
    val_main_v4 (F := Ideal) x0 (ix2 n k) = rowOf x0 n ⟨2 + k.val, by have := k.isLt; omega⟩ := by
  rw [val_main_v4_apply]
  refine (congrArg (val_main_v0 (F := Ideal) x0) (funext fun a => ?_)).trans
    (flat_entry x0 n ⟨2 + k.val, by have := k.isLt; omega⟩)
  match a with
  | ⟨0, _⟩ => rfl
  | ⟨1, _⟩ => rfl

/-- The memory block at `(n, k)` is entry `258 + k` of row `n`. -/
theorem mem_entry (n : Fin 262144) (k : Fin 128) :
    val_main_v5 (F := Ideal) x0 (ix2 n k) = rowOf x0 n ⟨258 + k.val, by have := k.isLt; omega⟩ := by
  rw [val_main_v5_apply]
  refine (congrArg (val_main_v0 (F := Ideal) x0) (funext fun a => ?_)).trans
    (flat_entry x0 n ⟨258 + k.val, by have := k.isLt; omega⟩)
  match a with
  | ⟨0, _⟩ => rfl
  | ⟨1, _⟩ => rfl

/-- `Wih` transposed, at `(k, g)`. -/
theorem wihT_entry (k g : Fin 384) : val_main_v17 (F := Ideal) x4 (ix2 k g) = matOf x4 g k := by
  rw [val_main_v17_apply]
  unfold matOf
  refine congrArg x4 (funext fun a => ?_)
  match a with
  | ⟨0, _⟩ => rfl
  | ⟨1, _⟩ => rfl

/-- `Whh` transposed, at `(k, g)`. -/
theorem whhT_entry (k : Fin 128) (g : Fin 384) : val_main_v22 (F := Ideal) x6 (ix2 k g) = matOf x6 g k := by
  rw [val_main_v22_apply]
  unfold matOf
  refine congrArg x6 (funext fun a => ?_)
  match a with
  | ⟨0, _⟩ => rfl
  | ⟨1, _⟩ => rfl

/-- The time features at `(n, t)`: the cosine of the elapsed time scaled by frequency `t`, shifted by phase `t`. -/
theorem timeFeat_entry (n : Fin 262144) (t : Fin 128) :
    val_main_v15 (F := Ideal) x0 x1 x2 x3 (ix2 n t)
      = timeFeat (rowOf x0 n) (stampOf x1 n) (vecOf x2) (vecOf x3) t := by
  rw [val_main_v15_apply, val_main_v14_apply, val_main_v11_apply, val_main_v9_apply, val_main_v7_apply,
    val_main_v6_apply, val_main_v3_apply, val_main_v2_apply, val_main_v10_apply, val_main_v8_apply,
    val_main_v13_apply, val_main_v12_apply]
  have e1 : val_main_v1 (F := Ideal) x1 (idx_main_v7 (idx_main_v9 (ix2 n t))) = stampOf x1 n :=
    (congrArg (val_main_v1 (F := Ideal) x1) (funext fun a => by match a with | ⟨0, _⟩ => rfl)).trans (stamp_entry x1 n)
  have e0 : val_main_v0 (F := Ideal) x0 (idx_main_v2 (idx_main_v3 (idx_main_v7 (idx_main_v9 (ix2 n t)))))
      = rowOf x0 n 0 :=
    (congrArg (val_main_v0 (F := Ideal) x0) (funext fun a => Fin.ext (by
      match a with
      | ⟨0, _⟩ => show n.val / 1 = n.val; omega
      | ⟨1, _⟩ => rfl))).trans (flat_entry x0 n 0)
  have e2 : x2 (idx_main_v8 (idx_main_v10 (ix2 n t))) = vecOf x2 t :=
    congrArg x2 (funext fun a => by match a with | ⟨0, _⟩ => rfl)
  have e3 : x3 (idx_main_v12 (idx_main_v13 (ix2 n t))) = vecOf x3 t :=
    congrArg x3 (funext fun a => by match a with | ⟨0, _⟩ => rfl)
  rw [e1, e0, e2, e3]
  rfl

/-- The input-side pre-activations at `(n, g)`. -/
theorem gi_entry (n : Fin 262144) (g : Fin 384) :
    val_main_v21 (F := Ideal) x0 x1 x2 x3 x4 x5 (ix2 n g)
      = gi (rowOf x0 n) (stampOf x1 n) (vecOf x2) (vecOf x3) (matOf x4) (vecOf x5) g := by
  unfold val_main_v21 val_main_v18 val_main_v16 val_main_v20 val_main_v19
  rw [JumpConcat.host_dense_apply (c₁ := 256) (c₂ := 128) rfl dot_S262144x384_S384x384_S262144x384_1_0_0_1_n_n
    rfl rfl rfl rfl rfl rfl concatenates_S262144x256_S262144x128_S262144x384_d1 bcast_S384_S1x384_1
    bcast_S1x384_S262144x384_0_1 (val_main_v4 (F := Ideal) x0) (val_main_v15 (F := Ideal) x0 x1 x2 x3)
    (val_main_v17 (F := Ideal) x4) x5 n g]
  unfold JumpConcat.entry gi
  congr 2
  · refine Finset.sum_congr rfl fun k _ => ?_
    show val_main_v4 (F := Ideal) x0 (ix2 n k) * val_main_v17 (F := Ideal) x4 (ix2 _ g) = _
    rw [msg_entry, wihT_entry]
  · refine Finset.sum_congr rfl fun t _ => ?_
    show val_main_v15 (F := Ideal) x0 x1 x2 x3 (ix2 n t) * val_main_v17 (F := Ideal) x4 (ix2 _ g) = _
    rw [timeFeat_entry, wihT_entry]

/-- The memory-side pre-activations at `(n, g)`. -/
theorem gh_entry (n : Fin 262144) (g : Fin 384) :
    val_main_v26 (F := Ideal) x0 x6 x7 (ix2 n g) = gh (rowOf x0 n) (matOf x6) (vecOf x7) g := by
  unfold val_main_v26 val_main_v23 val_main_v25 val_main_v24
  rw [addf_apply, Bilinear.Host.dot_apply dot_S262144x128_S128x384_S262144x384_1_0_0_1_n_n rfl rfl rfl rfl rfl rfl,
    JumpConcat.bias_apply bcast_S384_S1x384_1 bcast_S1x384_S262144x384_0_1 x7 n g]
  unfold gh
  congr 1
  refine Finset.sum_congr rfl fun k _ => ?_
  rw [mem_entry, whhT_entry]

/-- A 128-wide column block of the pre-activations, cut at offset `o`, at `(n, h)`. -/
theorem idx_block (o : ℕ) (n : Fin 262144) (h : Fin 128) (ho : o + h.val < 384)
    (i : S262144x384.Idx) (h0 : (i 0).val = n.val) (h1 : (i 1).val = o + h.val) :
    i = ix2 n (⟨o + h.val, ho⟩ : Fin 384) := by
  funext a
  apply Fin.ext
  match a with
  | ⟨0, _⟩ => exact h0
  | ⟨1, _⟩ => exact h1

/-- The reference's result at `(n, h)` is the cell of row `n` at `h`. -/
theorem result_entry (n : Fin 262144) (h : Fin 128) :
    val_main_v54 (F := Ideal) x0 x1 x2 x3 x4 x5 x6 x7 (ix2 n h)
      = cell (rowOf x0 n) (stampOf x1 n) (vecOf x2) (vecOf x3) (matOf x4) (vecOf x5) (matOf x6) (vecOf x7) h := by
  have hh := h.isLt
  have a0 : val_main_v27 (F := Ideal) x0 x1 x2 x3 x4 x5 (ix2 n h)
      = gi (rowOf x0 n) (stampOf x1 n) (vecOf x2) (vecOf x3) (matOf x4) (vecOf x5) ⟨h.val, by omega⟩ := by
    rw [val_main_v27_apply]
    exact (congrArg _ (idx_block 0 n h (by omega) _ rfl (Nat.zero_add _).symm)).trans
      ((gi_entry x0 x1 x2 x3 x4 x5 n ⟨0 + h.val, by omega⟩).trans (by congr 1; exact Fin.ext (Nat.zero_add _)))
  have a1 : val_main_v28 (F := Ideal) x0 x1 x2 x3 x4 x5 (ix2 n h)
      = gi (rowOf x0 n) (stampOf x1 n) (vecOf x2) (vecOf x3) (matOf x4) (vecOf x5) ⟨128 + h.val, by omega⟩ := by
    rw [val_main_v28_apply]
    exact (congrArg _ (idx_block 128 n h (by omega) _ rfl rfl)).trans (gi_entry x0 x1 x2 x3 x4 x5 n _)
  have a2 : val_main_v29 (F := Ideal) x0 x1 x2 x3 x4 x5 (ix2 n h)
      = gi (rowOf x0 n) (stampOf x1 n) (vecOf x2) (vecOf x3) (matOf x4) (vecOf x5) ⟨256 + h.val, by omega⟩ := by
    rw [val_main_v29_apply]
    exact (congrArg _ (idx_block 256 n h (by omega) _ rfl rfl)).trans (gi_entry x0 x1 x2 x3 x4 x5 n _)
  have b0 : val_main_v30 (F := Ideal) x0 x6 x7 (ix2 n h) = gh (rowOf x0 n) (matOf x6) (vecOf x7) ⟨h.val, by omega⟩ := by
    rw [val_main_v30_apply]
    exact (congrArg _ (idx_block 0 n h (by omega) _ rfl (Nat.zero_add _).symm)).trans
      ((gh_entry x0 x6 x7 n ⟨0 + h.val, by omega⟩).trans (by congr 1; exact Fin.ext (Nat.zero_add _)))
  have b1 : val_main_v31 (F := Ideal) x0 x6 x7 (ix2 n h)
      = gh (rowOf x0 n) (matOf x6) (vecOf x7) ⟨128 + h.val, by omega⟩ := by
    rw [val_main_v31_apply]
    exact (congrArg _ (idx_block 128 n h (by omega) _ rfl rfl)).trans (gh_entry x0 x6 x7 n _)
  have b2 : val_main_v32 (F := Ideal) x0 x6 x7 (ix2 n h)
      = gh (rowOf x0 n) (matOf x6) (vecOf x7) ⟨256 + h.val, by omega⟩ := by
    rw [val_main_v32_apply]
    exact (congrArg _ (idx_block 256 n h (by omega) _ rfl rfl)).trans (gh_entry x0 x6 x7 n _)
  rw [val_main_v54_apply, val_main_v52_apply, val_main_v53_apply, val_main_v51_apply, val_main_v50_apply,
    val_main_v49_apply, val_main_v48_apply, val_main_v47_apply, val_main_v46_apply, val_main_v45_apply,
    val_main_v44_apply, val_main_v43_apply, val_main_v42_apply, val_main_v41_apply, val_main_v40_apply,
    val_main_v39_apply, val_main_v38_apply, val_main_v37_apply, val_main_v36_apply, val_main_v35_apply,
    val_main_v34_apply, val_main_v33_apply, val_main_cst_apply, val_main_cst_0_apply, val_main_cst_1_apply,
    val_main_cst_2_apply, val_main_cst_3_apply, a0, a1, a2, b0, b1, b2, mem_entry]
  simp only [Ideal.ofBits_def, Ideal.ofBits_one_f32, Ideal.addf_def, Ideal.subf_def,
    Ideal.mulf_def, Ideal.hostDivf_def, Ideal.hostNegf_def, Ideal.negf_def, Ideal.hostUnary_exp_def,
    Ideal.hostUnary_tanh_def]
  rfl

end Cert.ReferenceIdeal.RefCell

end
-- ==== Proof.lean ====
/-
  A time-aware GRU memory update: the tiled kernel and the plain reference compute the same array on the extended reals.

  Each of the 262144 rows carries its last-update time, a 256-wide message and a 128-wide memory, and comes with an
  event time. The update forms 128 time features `cos ((event - last) * ω + β)`, feeds message and time features
  through `Wih` and the memory through `Whh`, and blends the old memory with a candidate through two logistic gates
  (`GruCell.cell`, Proof/GruCell.lean).

  The reference joins message and time features into one 384-wide input and multiplies once by `Wihᵀ`; the kernel
  multiplies the WHOLE 386-wide row by a weight that is zero outside the message rows, adds the product of the time
  features with the time block of `Wihᵀ`, and likewise multiplies the whole row by a weight that is zero outside the
  memory rows. Three facts join the two:
    * a product with a zero weight entry vanishes, `a * 0 = 0`, for every extended real `a` (Proof/LibPadSum.lean);
    * a sum over 384 joined columns is the sum over the first 256 plus the sum over the last 128
      (Proof/LibJumpConcat.lean) — a regrouping of a finite sum;
    * the reference's `1 / (1 + exp (-x))` is the logistic function, by definition on the extended reals.
  None of them needs the inputs to be finite, so the precondition is never opened. A change of float format is the
  identity on the extended reals, and a matrix product accumulated into zero is the plain sum over the contracted axis.

  The zero-padded weights are built before the launch by overwriting a block of rows of a zero matrix
  (Proof/LibScatterSet.lean reads that at an entry; Proof/HostPrep.lean reads every array the launch finds).
  Proof/BodyCell.lean reads the body's stored tile at an entry; Proof/KernelArray.lean goes from the 128 tiles of 2048
  rows to the whole result array; Proof/RefCell.lean reads the reference's result at an entry. Both are
  `GruCell.G` of the arguments.
-/
import proofs.«120630_j10642928959816_2_alg».proof.Defs
import proofs.«120630_j10642928959816_2_alg».proof.Proof.Gen.Kernel
import proofs.«120630_j10642928959816_2_alg».proof.Proof.Gen.Kernel.Skeleton
import proofs.«120630_j10642928959816_2_alg».proof.Proof.Gen.Kernel.Launch
import proofs.«120630_j10642928959816_2_alg».proof.Proof.Gen.Kernel.Points
import proofs.«120630_j10642928959816_2_alg».proof.Proof.Gen.Kernel.Frame
import proofs.«120630_j10642928959816_2_alg».proof.Proof.Gen.KernelIdeal
import proofs.«120630_j10642928959816_2_alg».proof.Proof.Gen.KernelIdeal.Skeleton
import proofs.«120630_j10642928959816_2_alg».proof.Proof.Gen.KernelIdeal.Launch
import proofs.«120630_j10642928959816_2_alg».proof.Proof.Gen.KernelIdeal.Points
import proofs.«120630_j10642928959816_2_alg».proof.Proof.Gen.KernelIdeal.Frame
import proofs.«120630_j10642928959816_2_alg».proof.Proof.Gen.ReferenceIdeal
import proofs.«120630_j10642928959816_2_alg».proof.Proof.Gen.KernelIdeal.Value
import proofs.«120630_j10642928959816_2_alg».proof.Proof.Gen.ReferenceIdeal.Run
import proofs.«120630_j10642928959816_2_alg».proof.Proof.Gen.ReferenceIdeal.Read
import proofs.«120630_j10642928959816_2_alg».proof.Proof.Gen.Pre_finite_inputs
import proofs.«120630_j10642928959816_2_alg».proof.Proof.KernelArray
import proofs.«120630_j10642928959816_2_alg».proof.Proof.RefCell
import Idealize.ShloMosaic.Adequacy
import Idealize.ShloMosaic.Init

noncomputable section

namespace Cert.Proof

open Idealize.ShloMosaic Idealize.ShloMosaic.ValueIdx Idealize.SL.Sem

/-- The kernel as printed runs to the end and leaves its arguments alone. -/
theorem frame_k : Cert.frame_Kernel := fun m ρ _ => Cert.Kernel.Gen.frame m ρ

/-- So does the kernel read on the extended reals. -/
theorem frame_ki : Cert.frame_KernelIdeal := fun m ρ _ => Cert.KernelIdeal.Gen.frame m ρ

/-- The reference's run, its result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end with the result array at `GruCell.G` of the arguments: the kernel by its 128 tiles
    (`KernelArray.run`), the reference entry by entry (`RefCell.result_entry`). -/
theorem algebraic : Cert.algebraic_KernelIdeal_ReferenceIdeal := by
  intro m ρ m' ρ' _ hagree
  refine ⟨_, Cert.KernelIdeal.KernelArray.run m ρ, ?_⟩
  refine (θ_run Cert.ReferenceIdeal.defs _ _).mono (fun _ h c => ⟨(h c).1.trans ?_, (h c).2⟩)
    (Cert.ReferenceIdeal.Value.run (F := Ideal) m' ρ')
  obtain ⟨g0, g1, g2, g3, g4, g5, g6, g7⟩ := hagree c
  rw [Cert.ReferenceIdeal.Read.val_main_v54_eq, g0, g1, g2, g3, g4, g5, g6, g7]
  funext i
  exact (congrArg _ (eq_ix2 i)).trans (Cert.ReferenceIdeal.RefCell.result_entry _ _ _ _ _ _ _ _ (i 0) (i 1))

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
